-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S64 .f32) (main_arg12 : FVec F S64x64 .f32) (main_arg13 : FVec F S64 .f32) (main_v48 : IVec S_ 1) (main_v49 : FVec F S128x64 .f32) (main_v50 : FVec F S128x64 .f32) : IVec S_ 1 :=
  let main_v51 : IVec S128x64 1 := cmpf .olt main_v49 main_v50
  let main_c_19 : IVec S_ 1 := constantI S_ 1 1#1
  let main_v52 : IVec S_ 1 := (fun x v => Host.reduce IntOp.andi x v reducesTo_S128x64_S_d0_1 h_S_) main_v51 main_c_19
  let main_v53 : IVec S_ 1 := andi main_v48 main_v52
  let main_v54 : FVec F S64 .f32 := Host.absf main_arg11
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x64 .f32 := Host.absf main_arg12
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64 .f32 := Host.absf main_arg13
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_v63 main_v67

def fn_part2 {F : FTy → Type} [FloatOps F] (main_arg7 : FVec F S64 .f32) (main_arg8 : FVec F S64x64 .f32) (main_arg9 : FVec F S64 .f32) (main_arg10 : FVec F S128x64 .f32) (main_arg11 : FVec F S64 .f32) (main_arg12 : FVec F S64x64 .f32) (main_arg13 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg8
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S128x64 .f32 := Host.absf main_arg10
  let main_cst_18 : FVec F S_ .f32 := constant S_ .f32 0x7F800000#32
  let main_v50 : FVec F S128x64 .f32 := broadcastInDim S128x64 ![] bcast_S_S128x64 main_cst_18
  fn_part3 (F := F) main_arg11 main_arg12 main_arg13 main_v48 main_v49 main_v50

def fn_part1 {F : FTy → Type} [FloatOps F] (main_arg4 : FVec F S128x128 .f32) (main_arg5 : FVec F S128 .f32) (main_arg6 : FVec F S128x64 .f32) (main_arg7 : FVec F S64 .f32) (main_arg8 : FVec F S64x64 .f32) (main_arg9 : FVec F S64 .f32) (main_arg10 : FVec F S128x64 .f32) (main_arg11 : FVec F S64 .f32) (main_arg12 : FVec F S64x64 .f32) (main_arg13 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg6
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S10000x128 .f32) (main_arg1 : FVec F S10000x10000 .f32) (main_arg2 : FVec F S128x128 .f32) (main_arg3 : FVec F S128 .f32) (main_arg4 : FVec F S128x128 .f32) (main_arg5 : FVec F S128 .f32) (main_arg6 : FVec F S128x64 .f32) (main_arg7 : FVec F S64 .f32) (main_arg8 : FVec F S64x64 .f32) (main_arg9 : FVec F S64 .f32) (main_arg10 : FVec F S128x64 .f32) (main_arg11 : FVec F S64 .f32) (main_arg12 : FVec F S64x64 .f32) (main_arg13 : FVec F S64 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S1x128 : Shape := ⟨2, ![1, 128]⟩
abbrev S1x64 : Shape := ⟨2, ![1, 64]⟩
abbrev S10000x64 : Shape := ⟨2, ![10000, 64]⟩
abbrev S400x10000 : Shape := ⟨2, ![400, 10000]⟩
abbrev S400x128 : Shape := ⟨2, ![400, 128]⟩
abbrev S400x64 : Shape := ⟨2, ![400, 64]⟩

abbrev nBuf : Space → Nat
  | .hbm => 23
  | .vmem => 25
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S128x64, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S1x128, .f32⟩
  | .hbm, ⟨15, _⟩ => ⟨S1x128, .f32⟩
  | .hbm, ⟨16, _⟩ => ⟨S1x64, .f32⟩
  | .hbm, ⟨17, _⟩ => ⟨S1x64, .f32⟩
  | .hbm, ⟨18, _⟩ => ⟨S1x64, .f32⟩
  | .hbm, ⟨19, _⟩ => ⟨S1x64, .f32⟩
  | .hbm, ⟨20, _⟩ => ⟨S10000x128, .bf16⟩
  | .hbm, ⟨21, _⟩ => ⟨S10000x64, .f32⟩
  | .hbm, ⟨22, _⟩ => ⟨S10000x64, .f32⟩
  | .local _ .vmem, ⟨0, _⟩ => ⟨S10000x128, .f32⟩
  | .local _ .vmem, ⟨1, _⟩ => ⟨S128x128, .f32⟩
  | .local _ .vmem, ⟨2, _⟩ => ⟨S1x128, .f32⟩
  | .local _ .vmem, ⟨3, _⟩ => ⟨S128x128, .f32⟩
  | .local _ .vmem, ⟨4, _⟩ => ⟨S400x10000, .f32⟩
  | .local _ .vmem, ⟨5, _⟩ => ⟨S400x10000, .f32⟩
  | .local _ .vmem, ⟨6, _⟩ => ⟨S400x128, .bf16⟩
  | .local _ .vmem, ⟨7, _⟩ => ⟨S400x128, .bf16⟩
  | .local _ .vmem, ⟨8, _⟩ => ⟨S10000x128, .bf16⟩
  | .local _ .vmem, ⟨9, _⟩ => ⟨S10000x128, .bf16⟩
  | .local _ .vmem, ⟨10, _⟩ => ⟨S1x128, .f32⟩
  | .local _ .vmem, ⟨11, _⟩ => ⟨S128x64, .f32⟩
  | .local _ .vmem, ⟨12, _⟩ => ⟨S1x64, .f32⟩
  | .local _ .vmem, ⟨13, _⟩ => ⟨S64x64, .f32⟩
  | .local _ .vmem, ⟨14, _⟩ => ⟨S1x64, .f32⟩
  | .local _ .vmem, ⟨15, _⟩ => ⟨S128x64, .f32⟩
  | .local _ .vmem, ⟨16, _⟩ => ⟨S1x64, .f32⟩
  | .local _ .vmem, ⟨17, _⟩ => ⟨S64x64, .f32⟩
  | .local _ .vmem, ⟨18, _⟩ => ⟨S1x64, .f32⟩
  | .local _ .vmem, ⟨19, _⟩ => ⟨S400x10000, .f32⟩
  | .local _ .vmem, ⟨20, _⟩ => ⟨S400x10000, .f32⟩
  | .local _ .vmem, ⟨21, _⟩ => ⟨S400x64, .f32⟩
  | .local _ .vmem, ⟨22, _⟩ => ⟨S400x64, .f32⟩
  | .local _ .vmem, ⟨23, _⟩ => ⟨S400x64, .f32⟩
  | .local _ .vmem, ⟨24, _⟩ => ⟨S400x64, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_v0_0 : Ref sig .tc := ⟨.hbm, 21, rfl⟩
abbrev main_v0_1 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg9_0 : Ref sig .tc := ⟨.vmem, 18, rfl⟩
abbrev cc1_stg10_0 : Ref sig .tc := ⟨.vmem, 19, rfl⟩
abbrev cc1_stg10_1 : Ref sig .tc := ⟨.vmem, 20, rfl⟩
abbrev cc1_stg11_0 : Ref sig .tc := ⟨.vmem, 21, rfl⟩
abbrev cc1_stg11_1 : Ref sig .tc := ⟨.vmem, 22, rfl⟩
abbrev cc1_stg12_0 : Ref sig .tc := ⟨.vmem, 23, rfl⟩
abbrev cc1_stg12_1 : Ref sig .tc := ⟨.vmem, 24, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem9_0 : DmaSem sig := 17
abbrev cc1_sem10_0 : DmaSem sig := 18
abbrev cc1_sem10_1 : DmaSem sig := 19
abbrev cc1_sem11_0 : DmaSem sig := 20
abbrev cc1_sem11_1 : DmaSem sig := 21
abbrev cc1_sem12_0 : DmaSem sig := 22
abbrev cc1_sem12_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x10000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S400x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S10000x128 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S400x10000 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S400x64 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S400x64 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

class Facts₀ : Prop where
  shapeCasts_S128_S1x128 : S128.ShapeCasts S1x128
  shapeCasts_S64_S1x64 : S64.ShapeCasts S1x64
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  shapeCasts_S10000x128_S10000x128 : S10000x128.ShapeCasts S10000x128
  packedbf16_S10000x128_S10000x128_0_0 : (Rect.unit (s := S10000x128) ![0, 0] S10000x128.size inb_S10000x128_S10000x128_0_0).PackedRows (EltTy.packing .bf16)
  inb_S400x10000_S400x10000_0_0 : ∀ a, (![0, 0] : Fin 2 → Nat) a + S400x10000.size a ≤ S400x10000.size a
  h_S400x10000 : 0 < S400x10000.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S400x128_S400x128_0_0 : ∀ a, (![0, 0] : Fin 2 → Nat) a + S400x128.size a ≤ S400x128.size a
  h_S400x128 : 0 < S400x128.numel
  packedbf16_S400x128_S400x128_0_0 : (Rect.unit (s := S400x128) ![0, 0] S400x128.size inb_S400x128_S400x128_0_0).PackedRows (EltTy.packing .bf16)
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  inb_S64x64_S64x64_0_0 : ∀ a, (![0, 0] : Fin 2 → Nat) a + S64x64.size a ≤ S64x64.size a
  h_S64x64 : 0 < S64x64.numel
  inb_S400x64_S400x64_0_0 : ∀ a, (![0, 0] : Fin 2 → Nat) a + S400x64.size a ≤ S400x64.size a
  h_S400x64 : 0 < S400x64.numel
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  dot_S400x128_S128x64_S400x64_1_0_0_1_n_n_wf : DotDims.WF S400x128 S128x64 S400x64 [1] [0] [0] [1] [] []
  dot_S400x64_S64x64_S400x64_1_0_0_1_n_n_wf : DotDims.WF S400x64 S64x64 S400x64 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x10000.size a ≤ S10000x10000.size a
  hwx0_4 : ∀ i : grid0.Coords, EltTy.bits .f32 = 32 ∨ (Rect.block (s := S10000x10000) S400x10000.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x128.size a ≤ S10000x128.size a
  hwx0_5 : ∀ i : grid0.Coords, EltTy.bits .bf16 = 32 ∨ (Rect.block (s := S10000x128) S400x128.size (cc0_transform_5 i) (hinb0_5 i)).WholeWords (EltTy.packing .bf16)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S10000x128.size a
  hwx1_0 : ∀ i : grid1.Coords, EltTy.bits .bf16 = 32 ∨ (Rect.block (s := S10000x128) S10000x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x64.size a ≤ S128x64.size a
  hwx1_6 : ∀ i : grid1.Coords, EltTy.bits .f32 = 32 ∨ (Rect.block (s := S128x64) S128x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64x64.size a ≤ S64x64.size a
  hwx1_8 : ∀ i : grid1.Coords, EltTy.bits .f32 = 32 ∨ (Rect.block (s := S64x64) S64x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x64.size a ≤ S1x64.size a
  hwx1_9 : ∀ i : grid1.Coords, EltTy.bits .f32 = 32 ∨ (Rect.block (s := S1x64) S1x64.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S400x10000.size a ≤ S10000x10000.size a
  hwx1_10 : ∀ i : grid1.Coords, EltTy.bits .f32 = 32 ∨ (Rect.block (s := S10000x10000) S400x10000.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S400x64.size a ≤ S10000x64.size a
  hwx1_11 : ∀ i : grid1.Coords, EltTy.bits .f32 = 32 ∨ (Rect.block (s := S10000x64) S400x64.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S400x64.size a ≤ S10000x64.size a
  hwx1_12 : ∀ i : grid1.Coords, EltTy.bits .f32 = 32 ∨ (Rect.block (s := S10000x64) S400x64.size (cc1_transform_12 i) (hinb1_12 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf
def dot_S400x128_S128x64_S400x64_1_0_0_1_n_n : DotDims S400x128 S128x64 S400x64 where
  lhsContracting := [1]
  rhsContracting := [0]
  lhsNonContracting := [0]
  rhsNonContracting := [1]
  lhsBatch := []
  rhsBatch := []
  wf := dot_S400x128_S128x64_S400x64_1_0_0_1_n_n_wf
def dot_S400x64_S64x64_S400x64_1_0_0_1_n_n : DotDims S400x64 S64x64 S400x64 where
  lhsContracting := [1]
  rhsContracting := [0]
  lhsNonContracting := [0]
  rhsNonContracting := [1]
  lhsBatch := []
  rhsBatch := []
  wf := dot_S400x64_S64x64_S400x64_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S400x10000.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_call0_v6) S400x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_call0_v6) S10000x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_call0_v1) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v2) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_call0_v3) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg10) S128x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_call0_v4) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg12) S64x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_call0_v5) S1x64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_arg1) S400x10000.size cc1_transform_10 reads1_10 false false 2 stage1_10 sem1_10
    hrank1 hreads1_10 hinb1_10 nbuf1_10 (Memref.isWhole_whole _) hwx1_10 hstage1_10

abbrev win1_11 : Pipeline.Window sig grid1 :=
  Pipeline.Window.ofSpec (Memref.whole main_v0_0) S400x64.size cc1_transform_11 reads1_11 true false 2 stage1_11 sem1_11
    hrank1 hreads1_11 hinb1_11 nbuf1_11 (Memref.isWhole_whole _) hwx1_11 hstage1_11

abbrev win1_12 : Pipeline.Window sig grid1 :=
  Pipeline.Window.ofSpec (Memref.whole main_v0_1) S400x64.size cc1_transform_12 reads1_12 true false 2 stage1_12 sem1_12
    hrank1 hreads1_12 hinb1_12 nbuf1_12 (Memref.isWhole_whole _) hwx1_12 hstage1_12

abbrev win1 : Fin 13 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | ⟨_ + 13, h⟩ => absurd h (Nat.not_lt.2 (Nat.le_add_left _ _))
abbrev spec1 : Fin 13 → Pipeline.WinSpec sig grid1.rank := fun w => (win1 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S1x128 : Shape := ⟨2, ![1, 128]⟩
abbrev S_ : Shape := ⟨0, ![]⟩
abbrev S10000x64 : Shape := ⟨2, ![10000, 64]⟩
abbrev S1x64 : Shape := ⟨2, ![1, 64]⟩

abbrev nBuf : Space → Nat
  | .hbm => 52
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S128x64, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S10000x128, .f32⟩
  | .hbm, ⟨15, _⟩ => ⟨S10000x128, .f32⟩
  | .hbm, ⟨16, _⟩ => ⟨S1x128, .f32⟩
  | .hbm, ⟨17, _⟩ => ⟨S10000x128, .f32⟩
  | .hbm, ⟨18, _⟩ => ⟨S10000x128, .f32⟩
  | .hbm, ⟨19, _⟩ => ⟨S_, .f32⟩
  | .hbm, ⟨20, _⟩ => ⟨S10000x128, .f32⟩
  | .hbm, ⟨21, _⟩ => ⟨S10000x128, .f32⟩
  | .hbm, ⟨22, _⟩ => ⟨S10000x128, .f32⟩
  | .hbm, ⟨23, _⟩ => ⟨S10000x128, .f32⟩
  | .hbm, ⟨24, _⟩ => ⟨S1x128, .f32⟩
  | .hbm, ⟨25, _⟩ => ⟨S10000x128, .f32⟩
  | .hbm, ⟨26, _⟩ => ⟨S10000x128, .f32⟩
  | .hbm, ⟨27, _⟩ => ⟨S_, .f32⟩
  | .hbm, ⟨28, _⟩ => ⟨S10000x128, .f32⟩
  | .hbm, ⟨29, _⟩ => ⟨S10000x128, .f32⟩
  | .hbm, ⟨30, _⟩ => ⟨S10000x64, .f32⟩
  | .hbm, ⟨31, _⟩ => ⟨S1x64, .f32⟩
  | .hbm, ⟨32, _⟩ => ⟨S10000x64, .f32⟩
  | .hbm, ⟨33, _⟩ => ⟨S10000x64, .f32⟩
  | .hbm, ⟨34, _⟩ => ⟨S_, .f32⟩
  | .hbm, ⟨35, _⟩ => ⟨S10000x64, .f32⟩
  | .hbm, ⟨36, _⟩ => ⟨S10000x64, .f32⟩
  | .hbm, ⟨37, _⟩ => ⟨S10000x64, .f32⟩
  | .hbm, ⟨38, _⟩ => ⟨S1x64, .f32⟩
  | .hbm, ⟨39, _⟩ => ⟨S10000x64, .f32⟩
  | .hbm, ⟨40, _⟩ => ⟨S10000x64, .f32⟩
  | .hbm, ⟨41, _⟩ => ⟨S10000x64, .f32⟩
  | .hbm, ⟨42, _⟩ => ⟨S1x64, .f32⟩
  | .hbm, ⟨43, _⟩ => ⟨S10000x64, .f32⟩
  | .hbm, ⟨44, _⟩ => ⟨S10000x64, .f32⟩
  | .hbm, ⟨45, _⟩ => ⟨S_, .f32⟩
  | .hbm, ⟨46, _⟩ => ⟨S10000x64, .f32⟩
  | .hbm, ⟨47, _⟩ => ⟨S10000x64, .f32⟩
  | .hbm, ⟨48, _⟩ => ⟨S10000x64, .f32⟩
  | .hbm, ⟨49, _⟩ => ⟨S1x64, .f32⟩
  | .hbm, ⟨50, _⟩ => ⟨S10000x64, .f32⟩
  | .hbm, ⟨51, _⟩ => ⟨S10000x64, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_call0_cst : Ref sig .tc := ⟨.hbm, 19, rfl⟩
abbrev main_call0_v0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_call1_cst : Ref sig .tc := ⟨.hbm, 27, rfl⟩
abbrev main_call1_v0 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_call2_cst : Ref sig .tc := ⟨.hbm, 34, rfl⟩
abbrev main_call2_v0 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_call3_cst : Ref sig .tc := ⟨.hbm, 45, rfl⟩
abbrev main_call3_v0 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x64_S10000x64_1_0_0_1_n_n_wf : DotDims.WF S10000x128 S128x64 S10000x64 [1] [0] [0] [1] [] []
  dot_S10000x64_S64x64_S10000x64_1_0_0_1_n_n_wf : DotDims.WF S10000x64 S64x64 S10000x64 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

class Facts : Prop extends Facts₀ where

variable [Facts]
-- ==== Proof.K.Body0.lean ====
import proofs.«168631_g6597069767366_cont_9to1_m_905_4_alg».proof.Proof.Gen.Kernel.Launch
import proofs.«168631_g6597069767366_cont_9to1_m_905_4_alg».proof.Proof.Gen.Kernel.Skeleton
import proofs.«168631_g6597069767366_cont_9to1_m_905_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Layers

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first layer's kernel body, run on whole staging buffers

At every grid point the body multiplies the point's 400 rows of the adjacency by the support matrix held in the
scratch buffer, adds the bias row, clamps at zero, multiplies by the second weight matrix and stores the 400 × 128
result. At the FIRST point only it first computes the support matrix (features times first weights) and stores it
into the scratch buffer, which later points find as that point left it. -/

/-- The body's branch condition, as the printed scalar chain spells it: the grid coordinate equals zero. -/
abbrev isFirst (i : grid0.Coords) : Prop := (Scalar.cmpi .ne (Scalar.extui (Scalar.cmpi .eq (BitVec.ofNat 32 (i 0).val) 0#32)) 0#32) = 1#1

/-- It holds at point 0 and at no other of the 25 points. -/
theorem isFirst_iff : ∀ t : Fin cfg0.N, isFirst (grid0.coords t) ↔ t.val = 0 :=
  (by decide +kernel : ∀ t : Fin grid0.N, isFirst (grid0.coords t) ↔ t.val = 0)

/-- The whole-buffer rectangles the body loads and stores through. -/
abbrev rX : Rect S10000x128 := Rect.unit (s := S10000x128) ![0, 0] S10000x128.size inb_S10000x128_S10000x128_0_0
abbrev rW : Rect S128x128 := Rect.unit (s := S128x128) ![0, 0] S128x128.size inb_S128x128_S128x128_0_0
abbrev rB : Rect S1x128 := Rect.unit (s := S1x128) ![0, 0] S1x128.size inb_S1x128_S1x128_0_0
abbrev rA : Rect S400x10000 := Rect.unit (s := S400x10000) ![0, 0] S400x10000.size inb_S400x10000_S400x10000_0_0
abbrev rO : Rect S400x128 := Rect.unit (s := S400x128) ![0, 0] S400x128.size inb_S400x128_S400x128_0_0

/-- The support matrix as the first point computes it from the features `x1` and the first weights `x2`. -/
def support (x1 : Vec F S10000x128 .f32) (x2 : Vec F S128x128 .f32) : rX.shape.Idx → Elt F .bf16 :=
  k0_pay1 (View.ld x1 rX) (View.ld x2 rW)

/-- What the scratch buffer holds once the first point has stored the support matrix into all of it. -/
def scratchAfter (x1 : Vec F S10000x128 .f32) (x2 : Vec F S128x128 .f32) : Vec F S10000x128 .bf16 :=
  View.canon [⟨rX, support x1 x2⟩]

/-- Loading the whole scratch buffer back gives the support matrix. -/
theorem ld_scratchAfter (x1 : Vec F S10000x128 .f32) (x2 : Vec F S128x128 .f32) :
    View.ld (scratchAfter x1 x2) rX = support x1 x2 :=
  funext fun j => View.canon_cons_emb rX (support x1 x2) [] j

/-- The output block a point leaves: from its adjacency rows `x5`, the support matrix `p` as loaded, the bias row
    `x3` and the second weights `x4`. -/
def layer1Out (x5 : Vec F S400x10000 .f32) (p : rX.shape.Idx → Elt F .bf16) (x3 : Vec F S1x128 .f32) (x4 : Vec F S128x128 .f32) :
    Vec F S400x128 .bf16 :=
  View.canon [⟨rO, k0_pay2 (View.ld x5 rA) p (View.ld x3 rB) (View.ld x4 rW)⟩]

/-- One store of the whole shape covers it. -/
theorem coverX (p0 : rX.shape.Idx → Elt F .bf16) (y : S10000x128.Idx) :
    ∃ pc ∈ ([⟨rX, p0⟩] : List (View.Piece (Elt F) S10000x128 .bf16)), y ∈ pc.1.set :=
  View.cover_of_tiled [⟨rX, p0⟩] S10000x128.size (by rfl) y
theorem coverO (p0 : rO.shape.Idx → Elt F .bf16) (y : S400x128.Idx) :
    ∃ pc ∈ ([⟨rO, p0⟩] : List (View.Piece (Elt F) S400x128 .bf16)), y ∈ pc.1.set :=
  View.cover_of_tiled [⟨rO, p0⟩] S400x128.size (by rfl) y

set_option maxHeartbeats 1000000 in
/-- AT THE FIRST POINT: the inputs' buffers at contents `x1 … x5`, the output's and the scratch at anything; the body
    leaves the inputs as they were, the scratch at the support matrix and the output block computed from it. -/
theorem body_first (c : Dev nD) (E : Set ℕ) (i : grid0.Coords) (hc : isFirst i)
    (arg1 : Memref sig .tc .vmem S10000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S128x128 .f32) (harg4 : arg4.IsWhole)
    (arg5 : Memref sig .tc .vmem S400x10000 .f32) (harg5 : arg5.IsWhole) (arg6 : Memref sig .tc .vmem S400x128 .bf16) (harg6 : arg6.IsWhole)
    (arg7 : Memref sig .tc .vmem S10000x128 .bf16) (harg7 : arg7.IsWhole)
    (x1 : Vec F S10000x128 .f32) (x2 : Vec F S128x128 .f32) (x3 : Vec F S1x128 .f32) (x4 : Vec F S128x128 .f32) (x5 : Vec F S400x10000 .f32)
    (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5
        ∗ (∃ d, owns (c : Thread nD τ) arg6 fullShare d) ∗ (∃ d, owns (c : Thread nD τ) arg7 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare (layer1Out x5 (support x1 x2) x3 x4)
            ∗ owns (c : Thread nD τ) arg7 fullShare (scratchAfter x1 x2)) -∗ K ⟨⟩))
      ⊢ wp frame (wpE (defs₀ (F := F)) Variants.none c none) E (cc0__layer1_body i arg1 harg1 arg2 harg2 arg3 harg3 arg4 harg4 arg5 harg5 arg6 harg6 arg7 harg7) K := by
  simp only [cc0__layer1_body_eq_skeleton]; unfold cc0__layer1_body_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf1; subst hf2; subst hf3; subst hf4; subst hf5
  sl_exec (disch := first | exact hc)
  sl_step
  sl_unfold_run_names
  rw [View.readCov_cons_toLoadRect]
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (coverO _)
  iexists _; isplitr
  swap; · iexact H7
  ipureintro
  exact View.read_writes_eq_canon _ _ _ (coverX _)

set_option maxHeartbeats 1000000 in
/-- AT A LATER POINT: the scratch buffer at contents `s`; the body leaves every input and the scratch as they were
    and the output block computed from the scratch as loaded. -/
theorem body_later (c : Dev nD) (E : Set ℕ) (i : grid0.Coords) (hc : ¬ isFirst i)
    (arg1 : Memref sig .tc .vmem S10000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S128x128 .f32) (harg4 : arg4.IsWhole)
    (arg5 : Memref sig .tc .vmem S400x10000 .f32) (harg5 : arg5.IsWhole) (arg6 : Memref sig .tc .vmem S400x128 .bf16) (harg6 : arg6.IsWhole)
    (arg7 : Memref sig .tc .vmem S10000x128 .bf16) (harg7 : arg7.IsWhole)
    (x1 : Vec F S10000x128 .f32) (x2 : Vec F S128x128 .f32) (x3 : Vec F S1x128 .f32) (x4 : Vec F S128x128 .f32) (x5 : Vec F S400x10000 .f32)
    (s : Vec F S10000x128 .bf16) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5
        ∗ (∃ d, owns (c : Thread nD τ) arg6 fullShare d) ∗ owns (c : Thread nD τ) arg7 fullShare s
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare (layer1Out x5 (View.ld s rX) x3 x4)
            ∗ owns (c : Thread nD τ) arg7 fullShare s) -∗ K ⟨⟩))
      ⊢ wp frame (wpE (defs₀ (F := F)) Variants.none c none) E (cc0__layer1_body i arg1 harg1 arg2 harg2 arg3 harg3 arg4 harg4 arg5 harg5 arg6 harg6 arg7 harg7) K := by
  simp only [cc0__layer1_body_eq_skeleton]; unfold cc0__layer1_body_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
  subst hf1; subst hf2; subst hf3; subst hf4; subst hf5; subst hf7
  sl_exec (disch := first | exact hc)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (coverO _)
  iexists f7; isplitr; · ipureintro; rfl
  iexact H7

end Cert.Kernel.Layers

end
-- ==== Proof.K.Data0.lean ====
import proofs.«168631_g6597069767366_cont_9to1_m_905_4_alg».proof.Proof.Gen.Kernel.Launch
import proofs.«168631_g6597069767366_cont_9to1_m_905_4_alg».proof.Proof.Gen.Kernel.Skeleton
import proofs.«168631_g6597069767366_cont_9to1_m_905_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«168631_g6597069767366_cont_9to1_m_905_4_alg».proof.Proof.K.Body0
set_option maxRecDepth 16384

noncomputable section

namespace Cert.Kernel.Layers

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first layer's region: proof data and body obligation, at the buffer contents `V` the region is entered from

The region has five input windows (features, first weights, bias row, second weights: whole arrays, fetched once;
the adjacency: 400 rows per point) and one output window (400 rows per point, written back at every point), and
a scratch buffer no window stages, which the first point fills with the support matrix and every later point reads. -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The first grid point. -/
abbrev t0 : Fin cfg0.N := ⟨0, by decide⟩

/-- The support matrix the first point computes from the features and the first weights as the region finds them. -/
def support0 (c : Dev nD) : rX.shape.Idx → Elt F .bf16 := support (iblk0 V c 0 t0) (iblk0 V c 1 t0)
/-- What the scratch buffer holds from the first point on. -/
def scratch0 (c : Dev nD) : Vec F S10000x128 .bf16 := scratchAfter (iblk0 V c 0 t0) (iblk0 V c 1 t0)

theorem ld_scratch0 (c : Dev nD) : View.ld (scratch0 V c) rX = support0 V c := ld_scratchAfter _ _

/-- The scratch operand: a whole scoped buffer of the kernel's own. -/
abbrev scM : Memref sig .tc .vmem S10000x128 .bf16 := Memref.whole cc0_scratch0

/-- The core's other scoped buffers that are no staging buffer of this region, each at some contents. -/
def restOthers (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg9_0), ((c : Thread nD τ).loc cc1_stg9_0) ↦{fullShare} f) ∗ (∃ f : Buf (Elt F) ((c : Thread nD τ).loc cc1_stg10_0), ((c : Thread nD τ).loc cc1_stg10_0) ↦{fullShare} f) ∗ (∃ f : Buf (Elt F) ((c : Thread nD τ).loc cc1_stg10_1), ((c : Thread nD τ).loc cc1_stg10_1) ↦{fullShare} f) ∗ (∃ f : Buf (Elt F) ((c : Thread nD τ).loc cc1_stg11_0), ((c : Thread nD τ).loc cc1_stg11_0) ↦{fullShare} f) ∗ (∃ f : Buf (Elt F) ((c : Thread nD τ).loc cc1_stg11_1), ((c : Thread nD τ).loc cc1_stg11_1) ↦{fullShare} f) ∗ (∃ f : Buf (Elt F) ((c : Thread nD τ).loc cc1_stg12_0), ((c : Thread nD τ).loc cc1_stg12_0) ↦{fullShare} f) ∗ (∃ f : Buf (Elt F) ((c : Thread nD τ).loc cc1_stg12_1), ((c : Thread nD τ).loc cc1_stg12_1) ↦{fullShare} f))

/-- The region invariant before the first point: every scoped buffer outside the windows at some contents, the
    generator register at some state — with the scratch buffer named. -/
theorem PhiA0_eq (c : Dev nD) :
    (Pipeline.ΦA spec0 c : sProp 𝕄) = iprop(((∃ d, owns (c : Thread nD τ) scM fullShare d) ∗ restOthers c) ∗ (∃ r, prngReg c r)) := by
  unfold Pipeline.ΦA restOthers; rw [scopedRest0_eq]; simp only [scM, owns_whole]; try rfl

/-- After the first point: the scratch buffer at the support matrix. -/
def PhiLater (c : Dev nD) : sProp 𝕄 :=
  iprop((owns (c : Thread nD τ) scM fullShare (scratch0 V c) ∗ restOthers c) ∗ (∃ r, prngReg c r))

/-- The scratch's named contents forgotten, the later invariant is the first one again. -/
theorem PhiLater_forget (c : Dev nD) : PhiLater V c ⊢ (Pipeline.ΦA spec0 c : sProp 𝕄) := by
  rw [PhiA0_eq]; unfold PhiLater
  iintro ⟨⟨Hs, Hr⟩, Hp⟩
  isplitl [Hs Hr]
  · isplitl [Hs]; · iexists _; iexact Hs
    iexact Hr
  iexact Hp

/-- The invariant before position `k`. -/
def Phi0 (c : Dev nD) (k : Fin (cfg0.N + 1)) : sProp 𝕄 :=
  if k.val = 0 then Pipeline.ΦA spec0 c else PhiLater V c

theorem Phi0_zero (c : Dev nD) (k : Fin (cfg0.N + 1)) (h : k.val = 0) : Phi0 V c k = Pipeline.ΦA spec0 c := by
  unfold Phi0; rw [if_pos h]
theorem Phi0_pos (c : Dev nD) (k : Fin (cfg0.N + 1)) (h : k.val ≠ 0) : Phi0 V c k = PhiLater V c := by
  unfold Phi0; rw [if_neg h]

/-- The proof data of the region on core `c`: the arrays as the region finds them; after the body at point `t`
    each input's buffer at its block and the output's at the block computed from the point's adjacency rows, the
    support matrix, the bias row and the second weights; the invariant carrying the scratch; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => layer1Out (iblk0 V c 4 t) (support0 V c) (iblk0 V c 2 t) (iblk0 V c 3 t)
  Φ k := Phi0 V c k
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = layer1Out (iblk0 V c 4 t) (support0 V c) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

set_option maxHeartbeats 1000000 in
/-- The body at any point. At the first the invariant hands it the scratch at anything and takes it back at the
    support matrix; at a later point it hands the scratch at the support matrix and takes it back unchanged. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl,
    after0_0, after0_1, after0_2, after0_3, after0_4, after0_5,
    show (dat0 V c).Φ t.succ = PhiLater V c from Phi0_pos V c t.succ (Nat.succ_ne_zero _)]
  unfold PhiLater
  by_cases h0 : t.val = 0
  · obtain rfl : t = t0 := Fin.ext h0
    have hc : isFirst (grid0.coords t0) := (isFirst_iff t0).mpr rfl
    rw [show (dat0 V c).Φ (t0 : Fin cfg0.N).castSucc = Pipeline.ΦA spec0 c from Phi0_zero V c (t0 : Fin cfg0.N).castSucc rfl, PhiA0_eq]
    iintro ⟨⟨⟨⟨%ds, Hs⟩, Hrest⟩, Hp⟩, Ho, ⟨%d0, H0⟩, ⟨%d1, H1⟩, ⟨%d2, H2⟩, ⟨%d3, H3⟩, ⟨%d4, H4⟩, ⟨%d5, H5⟩⟩
    iapply (body_first c Set.univ _ hc _ _ _ _ _ _ _ _ _ _ _ _ _ _ (iblk0 V c 0 t0) (iblk0 V c 1 t0) (iblk0 V c 2 t0) (iblk0 V c 3 t0) (iblk0 V c 4 t0) _)
    isplitl [H0]; · iexact H0
    isplitl [H1]; · iexact H1
    isplitl [H2]; · iexact H2
    isplitl [H3]; · iexact H3
    isplitl [H4]; · iexact H4
    isplitl [H5]; · iexists _; iexact H5
    isplitl [Hs]; · iexists _; iexact Hs
    iintro ⟨H0, H1, H2, H3, H4, H5, Hs⟩
    isplitl [Hs Hrest Hp]
    · isplitl [Hs Hrest]
      · isplitl [Hs]; · iexact Hs
        iexact Hrest
      iexact Hp
    isplitl [Ho]; · iexact Ho
    isplitl [H0]; · iexact H0
    isplitl [H1]; · iexact H1
    isplitl [H2]; · iexact H2
    isplitl [H3]; · iexact H3
    isplitl [H4]; · iexact H4
    iexact H5
  · have hc : ¬ isFirst (grid0.coords t) := fun h => h0 ((isFirst_iff t).mp h)
    rw [show (dat0 V c).Φ t.castSucc = PhiLater V c from Phi0_pos V c t.castSucc h0]
    unfold PhiLater
    rw [← ld_scratch0 V c]
    iintro ⟨⟨⟨Hs, Hrest⟩, Hp⟩, Ho, ⟨%d0, H0⟩, ⟨%d1, H1⟩, ⟨%d2, H2⟩, ⟨%d3, H3⟩, ⟨%d4, H4⟩, ⟨%d5, H5⟩⟩
    iapply (body_later c Set.univ _ hc _ _ _ _ _ _ _ _ _ _ _ _ _ _ (iblk0 V c 0 t) (iblk0 V c 1 t) (iblk0 V c 2 t) (iblk0 V c 3 t) (iblk0 V c 4 t) (scratch0 V c) _)
    isplitl [H0]; · iexact H0
    isplitl [H1]; · iexact H1
    isplitl [H2]; · iexact H2
    isplitl [H3]; · iexact H3
    isplitl [H4]; · iexact H4
    isplitl [H5]; · iexists _; iexact H5
    isplitl [Hs]; · iexact Hs
    iintro ⟨H0, H1, H2, H3, H4, H5, Hs⟩
    isplitl [Hs Hrest Hp]
    · isplitl [Hs Hrest]
      · isplitl [Hs]; · iexact Hs
        iexact Hrest
      iexact Hp
    isplitl [Ho]; · iexact Ho
    isplitl [H0]; · iexact H0
    isplitl [H1]; · iexact H1
    isplitl [H2]; · iexact H2
    isplitl [H3]; · iexact H3
    isplitl [H4]; · iexact H4
    iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Layers

end
-- ==== Proof.K.Body1.lean ====
import proofs.«168631_g6597069767366_cont_9to1_m_905_4_alg».proof.Proof.Gen.Kernel.Launch
import proofs.«168631_g6597069767366_cont_9to1_m_905_4_alg».proof.Proof.Gen.Kernel.Skeleton
import proofs.«168631_g6597069767366_cont_9to1_m_905_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Layers

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second layer's kernel body, run on whole staging buffers

At every grid point the body multiplies the point's 400 rows of the adjacency by the first layer's output, adds the
bias row and clamps at zero; from that hidden block it computes the two heads — each a product with a weight matrix,
a bias, a clamp at zero, a second product and a second bias — and stores the two 400 × 64 results. -/

abbrev qS : Rect S10000x128 := Rect.unit (s := S10000x128) ![0, 0] S10000x128.size inb_S10000x128_S10000x128_0_0
abbrev qB : Rect S1x128 := Rect.unit (s := S1x128) ![0, 0] S1x128.size inb_S1x128_S1x128_0_0
abbrev qW : Rect S128x64 := Rect.unit (s := S128x64) ![0, 0] S128x64.size inb_S128x64_S128x64_0_0
abbrev qb : Rect S1x64 := Rect.unit (s := S1x64) ![0, 0] S1x64.size inb_S1x64_S1x64_0_0
abbrev qV : Rect S64x64 := Rect.unit (s := S64x64) ![0, 0] S64x64.size inb_S64x64_S64x64_0_0
abbrev qA : Rect S400x10000 := Rect.unit (s := S400x10000) ![0, 0] S400x10000.size inb_S400x10000_S400x10000_0_0
abbrev qO : Rect S400x64 := Rect.unit (s := S400x64) ![0, 0] S400x64.size inb_S400x64_S400x64_0_0

/-- The first head's block at a point: from the first layer's output `y1`, the bias row `y2`, the head's two weight
    matrices and bias rows `y3 … y6` and the point's adjacency rows `y11`. -/
def headOut1 (y1 : Vec F S10000x128 .bf16) (y2 : Vec F S1x128 .f32) (y3 : Vec F S128x64 .f32) (y4 : Vec F S1x64 .f32)
    (y5 : Vec F S64x64 .f32) (y6 : Vec F S1x64 .f32) (y11 : Vec F S400x10000 .f32) : Vec F S400x64 .f32 :=
  View.canon [⟨qO, k1_pay3 (View.ld y11 qA) (View.ld y1 qS) (View.ld y2 qB) (View.ld y3 qW) (View.ld y4 qb) (View.ld y5 qV) (View.ld y6 qb)⟩]

/-- The second head's block at a point, likewise from `y7 … y10`. -/
def headOut2 (y1 : Vec F S10000x128 .bf16) (y2 : Vec F S1x128 .f32) (y7 : Vec F S128x64 .f32) (y8 : Vec F S1x64 .f32)
    (y9 : Vec F S64x64 .f32) (y10 : Vec F S1x64 .f32) (y11 : Vec F S400x10000 .f32) : Vec F S400x64 .f32 :=
  View.canon [⟨qO, k1_pay1 (k1_pay4 (View.ld y11 qA) (View.ld y1 qS) (View.ld y2 qB) (View.ld y7 qW) (View.ld y8 qb)) (View.ld y9 qV) (View.ld y10 qb)⟩]

theorem coverH (p0 : qO.shape.Idx → Elt F .f32) (y : S400x64.Idx) :
    ∃ pc ∈ ([⟨qO, p0⟩] : List (View.Piece (Elt F) S400x64 .f32)), y ∈ pc.1.set :=
  View.cover_of_tiled [⟨qO, p0⟩] S400x64.size (by rfl) y

set_option maxHeartbeats 2000000 in
/-- The eleven inputs' buffers at contents `y1 … y11`, the two outputs' at anything: the body leaves the inputs as
    they were and the outputs at the two heads' blocks. -/
theorem body_heads (c : Dev nD) (E : Set ℕ) (i : grid1.Coords)
    (arg1 : Memref sig .tc .vmem S10000x128 .bf16) (harg1 : arg1.IsWhole) (arg2 : Memref sig .tc .vmem S1x128 .f32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S64x64 .f32) (harg5 : arg5.IsWhole) (arg6 : Memref sig .tc .vmem S1x64 .f32) (harg6 : arg6.IsWhole)
    (arg7 : Memref sig .tc .vmem S128x64 .f32) (harg7 : arg7.IsWhole) (arg8 : Memref sig .tc .vmem S1x64 .f32) (harg8 : arg8.IsWhole)
    (arg9 : Memref sig .tc .vmem S64x64 .f32) (harg9 : arg9.IsWhole) (arg10 : Memref sig .tc .vmem S1x64 .f32) (harg10 : arg10.IsWhole)
    (arg11 : Memref sig .tc .vmem S400x10000 .f32) (harg11 : arg11.IsWhole) (arg12 : Memref sig .tc .vmem S400x64 .f32) (harg12 : arg12.IsWhole)
    (arg13 : Memref sig .tc .vmem S400x64 .f32) (harg13 : arg13.IsWhole)
    (y1 : Vec F S10000x128 .bf16) (y2 : Vec F S1x128 .f32) (y3 : Vec F S128x64 .f32) (y4 : Vec F S1x64 .f32) (y5 : Vec F S64x64 .f32) (y6 : Vec F S1x64 .f32)
    (y7 : Vec F S128x64 .f32) (y8 : Vec F S1x64 .f32) (y9 : Vec F S64x64 .f32) (y10 : Vec F S1x64 .f32) (y11 : Vec F S400x10000 .f32)
    (K : PUnit → sProp 𝕄) :
    iprop(owns (c : Thread nD τ) arg1 fullShare y1 ∗ owns (c : Thread nD τ) arg2 fullShare y2 ∗ owns (c : Thread nD τ) arg3 fullShare y3 ∗ owns (c : Thread nD τ) arg4 fullShare y4 ∗ owns (c : Thread nD τ) arg5 fullShare y5 ∗ owns (c : Thread nD τ) arg6 fullShare y6 ∗ owns (c : Thread nD τ) arg7 fullShare y7 ∗ owns (c : Thread nD τ) arg8 fullShare y8 ∗ owns (c : Thread nD τ) arg9 fullShare y9 ∗ owns (c : Thread nD τ) arg10 fullShare y10 ∗ owns (c : Thread nD τ) arg11 fullShare y11
        ∗ (∃ d, owns (c : Thread nD τ) arg12 fullShare d) ∗ (∃ d, owns (c : Thread nD τ) arg13 fullShare d)
        ∗ (iprop(owns (c : Thread nD τ) arg1 fullShare y1 ∗ owns (c : Thread nD τ) arg2 fullShare y2 ∗ owns (c : Thread nD τ) arg3 fullShare y3 ∗ owns (c : Thread nD τ) arg4 fullShare y4 ∗ owns (c : Thread nD τ) arg5 fullShare y5 ∗ owns (c : Thread nD τ) arg6 fullShare y6 ∗ owns (c : Thread nD τ) arg7 fullShare y7 ∗ owns (c : Thread nD τ) arg8 fullShare y8 ∗ owns (c : Thread nD τ) arg9 fullShare y9 ∗ owns (c : Thread nD τ) arg10 fullShare y10 ∗ owns (c : Thread nD τ) arg11 fullShare y11
            ∗ owns (c : Thread nD τ) arg12 fullShare (headOut1 y1 y2 y3 y4 y5 y6 y11)
            ∗ owns (c : Thread nD τ) arg13 fullShare (headOut2 y1 y2 y7 y8 y9 y10 y11)) -∗ K ⟨⟩))
      ⊢ wp frame (wpE (defs₀ (F := F)) Variants.none c none) E (cc1__layer2_body i arg1 harg1 arg2 harg2 arg3 harg3 arg4 harg4 arg5 harg5 arg6 harg6 arg7 harg7 arg8 harg8 arg9 harg9 arg10 harg10 arg11 harg11 arg12 harg12 arg13 harg13) K := by
  simp only [cc1__layer2_body_eq_skeleton]; unfold cc1__layer2_body_skel
  simp only [k1_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, Hk⟩
  subst hf1; subst hf2; subst hf3; subst hf4; subst hf5; subst hf6; subst hf7; subst hf8; subst hf9; subst hf10; subst hf11
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    exact View.read_writes_eq_canon _ _ _ (coverH _)
  iexists _; isplitr
  swap; · iexact H13
  ipureintro
  exact View.read_writes_eq_canon _ _ _ (coverH _)

end Cert.Kernel.Layers

end
-- ==== Proof.K.Data1.lean ====
import proofs.«168631_g6597069767366_cont_9to1_m_905_4_alg».proof.Proof.Gen.Kernel.Launch
import proofs.«168631_g6597069767366_cont_9to1_m_905_4_alg».proof.Proof.Gen.Kernel.Skeleton
import proofs.«168631_g6597069767366_cont_9to1_m_905_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«168631_g6597069767366_cont_9to1_m_905_4_alg».proof.Proof.K.Body1
set_option maxRecDepth 16384

noncomputable section

namespace Cert.Kernel.Layers

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second layer's region: proof data and body obligation, at the buffer contents `V` the region is entered from

Eleven input windows (the first layer's output, the bias row, the two heads' weights and bias rows: whole arrays,
fetched once; the adjacency: 400 rows per point) and two output windows (400 rows per point each, written back at
every point). The body reads only its windows, so the invariant is the region's rest, untouched. -/

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)

/-- The proof data of the region on core `c`: the arrays as the region finds them; after the body at point `t`
    each input's buffer at its block and the two outputs' at the heads' blocks; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => headOut1 (iblk1 V c 0 t) (iblk1 V c 1 t) (iblk1 V c 2 t) (iblk1 V c 3 t) (iblk1 V c 4 t) (iblk1 V c 5 t) (iblk1 V c 10 t)
    | ⟨12, _⟩ => headOut2 (iblk1 V c 0 t) (iblk1 V c 1 t) (iblk1 V c 6 t) (iblk1 V c 7 t) (iblk1 V c 8 t) (iblk1 V c 9 t) (iblk1 V c 10 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t
    = headOut1 (iblk1 V c 0 t) (iblk1 V c 1 t) (iblk1 V c 2 t) (iblk1 V c 3 t) (iblk1 V c 4 t) (iblk1 V c 5 t) (iblk1 V c 10 t) := by dsimp only [dat1]
theorem after1_12 (c : Dev nD) (t : Fin cfg1.N) : (dat1 V c).after 12 t
    = headOut2 (iblk1 V c 0 t) (iblk1 V c 1 t) (iblk1 V c 6 t) (iblk1 V c 7 t) (iblk1 V c 8 t) (iblk1 V c 9 t) (iblk1 V c 10 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t))

set_option maxHeartbeats 1000000 in
/-- The body at any point: the inputs' buffers hold their blocks; the invariant and what the core owes pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (body_heads c Set.univ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Layers

end
-- ==== Proof.K.Run.lean ====
import proofs.«168631_g6597069767366_cont_9to1_m_905_4_alg».proof.Proof.Gen.Kernel.Launch
import proofs.«168631_g6597069767366_cont_9to1_m_905_4_alg».proof.Proof.Gen.Kernel.Skeleton
import proofs.«168631_g6597069767366_cont_9to1_m_905_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«168631_g6597069767366_cont_9to1_m_905_4_alg».proof.Proof.Gen.Kernel.Regions
import proofs.«168631_g6597069767366_cont_9to1_m_905_4_alg».proof.Proof.K.Data0
import proofs.«168631_g6597069767366_cont_9to1_m_905_4_alg».proof.Proof.K.Data1
set_option maxRecDepth 16384

noncomputable section

namespace Cert.Kernel.Layers

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of the whole program

The program is six host reshapes (each bias vector as a one-row matrix), the first layer's region and the second
layer's region. Below: what every unscoped buffer holds at each of the four boundaries, each region's record over
those contents, the program as the list of its three segments, and the launch — every weakly fair execution ends,
and the final memory holds every unscoped buffer at the last boundary's contents. The frame claim is that statement
read at the fourteen argument arrays, which no segment writes. -/

variable (m : (ℓ : Loc nD τ sig) → Buf (Elt F) ℓ) (ρ : Dev nD → PrngReg)

/-! ## The buffer contents at each boundary -/

/-- After the host reshapes (the first region's entry), read at the TensorCore's references. -/
abbrev U1 : (c : Dev nD) → (b : Ref sig .tc) → Buf (Elt F) ((c : Thread nD τ).loc b) := fun c b => Gen.V1 m c b
/-- At the first region's exit: its arrays at what the pipeline leaves, every other buffer as entered. -/
def B2 (c : Dev nD) : Valuation τ sig (Elt F) :=
  Pipeline.withArrays spec0 c (Gen.V1 m c) fun w => (dat0 (U1 m) c).arrAt w cfg0.N
theorem B2_arr (c : Dev nD) (w : Fin cfg0.W) :
    B2 m c (Proc.devRef .tc (Pipeline.arrRef spec0 w)) = (dat0 (U1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = Gen.V1 m c (Proc.devRef .tc b) := by
  unfold B2; exact Pipeline.withArrays_of_ne spec0 c _ _ b hb
abbrev U2 : (c : Dev nD) → (b : Ref sig .tc) → Buf (Elt F) ((c : Thread nD τ).loc b) := fun c b => B2 m c b
theorem hF0 (c : Dev nD) (w : Fin cfg0.W) : (dat0 (U1 m) c).arrAt w cfg0.N = U2 m c (Pipeline.arrRef spec0 w) :=
  (B2_arr m c w).symm
theorem hrest0 (c : Dev nD) : ∀ b, b ∉ Finset.univ.image (Pipeline.arrRef spec0) → U2 m c b = U1 m c b :=
  fun b hb => B2_of_ne m c b fun w e => hb (Finset.mem_image.mpr ⟨w, Finset.mem_univ _, e⟩)

/-- At the second region's exit, likewise. -/
def B3 (c : Dev nD) : Valuation τ sig (Elt F) :=
  Pipeline.withArrays spec1 c (B2 m c) fun w => (dat1 (U2 m) c).arrAt w cfg1.N
theorem B3_arr (c : Dev nD) (w : Fin cfg1.W) :
    B3 m c (Proc.devRef .tc (Pipeline.arrRef spec1 w)) = (dat1 (U2 m) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m c (Proc.devRef .tc b) = B2 m c (Proc.devRef .tc b) := by
  unfold B3; exact Pipeline.withArrays_of_ne spec1 c _ _ b hb
abbrev U3 : (c : Dev nD) → (b : Ref sig .tc) → Buf (Elt F) ((c : Thread nD τ).loc b) := fun c b => B3 m c b
theorem hF1 (c : Dev nD) (w : Fin cfg1.W) : (dat1 (U2 m) c).arrAt w cfg1.N = U3 m c (Pipeline.arrRef spec1 w) :=
  (B3_arr m c w).symm
theorem hrest1 (c : Dev nD) : ∀ b, b ∉ Finset.univ.image (Pipeline.arrRef spec1) → U3 m c b = U2 m c b :=
  fun b hb => B3_of_ne m c b fun w e => hb (Finset.mem_image.mpr ⟨w, Finset.mem_univ _, e⟩)

/-! ## A buffer no region writes back keeps its contents -/

/-- A buffer that is no output window's array of the first region leaves it as it entered: an input window's array
    is read, never written; a buffer outside the windows is bypassed. -/
theorem B2_keep (c : Dev nD) (b : Ref sig .tc) (h : ∀ w : Fin cfg0.W, Pipeline.arrRef spec0 w = b → (cfg0.win w).isOut = false) :
    B2 m c (Proc.devRef .tc b) = Gen.V1 m c (Proc.devRef .tc b) := by
  by_cases hw : ∃ w, Pipeline.arrRef spec0 w = b
  · obtain ⟨w, rfl⟩ := hw
    exact (B2_arr m c w).trans (((dat0 (U1 m) c).arrAt_in w (h w rfl) _).trans (A_eq0 (U1 m) c w))
  · exact B2_of_ne m c b fun w e => hw ⟨w, e⟩
/-- The same for the second region. -/
theorem B3_keep (c : Dev nD) (b : Ref sig .tc) (h : ∀ w : Fin cfg1.W, Pipeline.arrRef spec1 w = b → (cfg1.win w).isOut = false) :
    B3 m c (Proc.devRef .tc b) = B2 m c (Proc.devRef .tc b) := by
  by_cases hw : ∃ w, Pipeline.arrRef spec1 w = b
  · obtain ⟨w, rfl⟩ := hw
    exact (B3_arr m c w).trans (((dat1 (U2 m) c).arrAt_in w (h w rfl) _).trans (A_eq1 (U2 m) c w))
  · exact B3_of_ne m c b fun w e => hw ⟨w, e⟩

/-- A buffer that no reshape writes and that is no output array of either region ends as launched. -/
theorem B3_launch (c : Dev nD) (b : Ref sig .tc) (hh : b ∉ Gen.hostOps0_W)
    (h0 : ∀ w : Fin cfg0.W, Pipeline.arrRef spec0 w = b → (cfg0.win w).isOut = false)
    (h1 : ∀ w : Fin cfg1.W, Pipeline.arrRef spec1 w = b → (cfg1.win w).isOut = false) :
    B3 m c (Proc.devRef .tc b) = m ((c : Thread nD τ).loc b) :=
  (B3_keep m c b h1).trans ((B2_keep m c b h0).trans ((Gen.V1_of m c b hh).trans rfl))

/-! ## The proof data family and the thread state -/

/-- No pipeline has a prefetched table. -/
abbrev padm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) padm p) c
  | ⟨0, _⟩ => fun c => dat0 (U1 m) c
  | ⟨1, _⟩ => fun c => dat1 (U2 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- The host reshapes as a segment from the launch contents. -/
abbrev hseg : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp Gen.hostOps0_fresh) op h) (Gen.V0 m) R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes. -/
abbrev Tₙ (c : Dev nD) : sProp 𝕄 := iprop(StableHlo.held (c : Thread nD τ) (Pipeline.ucRefs τ sig) (B3 m c) ∗ ∃ r, prngReg c r)

/-! ## The regions as segments -/

set_option backward.isDefEq.respectTransparency.types false in
/-- The first layer's region: entered from every unscoped buffer after the reshapes, left with its output array at
    what the write-backs leave. The scratch buffer enters the invariant among the region's scoped rest and comes
    back with it, its contents forgotten. -/
def reg0 : Pipeline.RegionSeg (pcfgs (F := F)) padm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) padm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from Phi0_zero (U1 m) c 0 rfl]; unfold Pipeline.ΦA
    iintro ⟨Hp, -, Hr⟩
    isplitl [Hr]; · iexact Hr
    iexact Hp
  hout c := by
    rw [Pipeline.ownSems0_none, show (pdats m 0 c).Φ (Fin.last _) = PhiLater (U1 m) c from Phi0_pos (U1 m) c (Fin.last cfg0.N) (by decide)]
    refine (PhiLater_forget (U1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) padm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second layer's region: entered from the first region's exit contents, left with its two output arrays at
    what the write-backs leave — the contents the launch reads at the end. -/
def reg1 : Pipeline.RegionSeg (pcfgs (F := F)) padm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U2 m) c).loose
  hwaits := Pipeline.hwaits_of_owed_zero _ _ _ _ L lv 1 fun _ _ => rfl
  pre c := iprop(StableHlo.held (c : Thread nD τ) (Pipeline.ucRefs τ sig) (B2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U2 m c)
  hentry c := by
    rw [Pipeline.ownSems0_none]
    have hsplit := Pipeline.arrays_of_unscopedBufs (p := 1) (pcfgs (F := F)) padm (pdats m) launch1.win launch1.arr_whole c
      ((pdats m 1 c).share_full fun _ => rfl) (U2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) padm (Ix := Unit) (Name := ℕ) (U := UR sig nD τ) (Lvl := ℕ)
      launch1.win launch1.arr_whole c (pdats m) ((pdats m 1 c).share_full fun _ => rfl)
      (U2 m c) (U3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev lsegs : List (Pipeline.Seg (pcfgs (F := F)) padm (pdats m) () defs₀ 𝒱₀ L lv) :=
  [ .host (hseg m), .region (reg0 m), .region (reg1 m) ]
theorem main_run (c : Dev nD) : main (F := F) c = Pipeline.Seg.run (lsegs m) := (main_chain c).trans (by chain_rfl)

set_option backward.isDefEq.respectTransparency.types false in
/-- THE RUN: from any memory with zero counters every weakly fair execution of the program on the TensorCores
    terminates, nothing faulting, and the final memory holds every unscoped buffer at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = B3 m c b) :=
  Pipeline.θ_run_regions_kit (pcfgs (F := F)) padm (pdats m) () cellOf_inj emb₁ defs₀ 𝒱₀ L lv m ρ main (lsegs m)
    (fun c Q => by rw [main_run m c])
    (by simp only [lsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B3 m c b)
    (hfin := fun c s' => by
      iintro ⟨⟨Hh, -⟩, HSI⟩
      unfold StableHlo.held
      imodintro
      iapply (pointsTo_read_all (Pipeline.ucRefs τ sig) (fun b => (((c : Thread nD τ)).1, b)) (B3 m c) s')
      isplitl [Hh] <;> iassumption)
    (hQ := fun s h => h)

/-- THE FRAME: every argument array ends as launched — none is written by a reshape, and none is an output array of
    either region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨(h c _ (mem_uc main_arg0 (by decide))).trans (B3_launch m c main_arg0 (by decide) (by decide) (by decide)),
     (h c _ (mem_uc main_arg1 (by decide))).trans (B3_launch m c main_arg1 (by decide) (by decide) (by decide)),
     (h c _ (mem_uc main_arg2 (by decide))).trans (B3_launch m c main_arg2 (by decide) (by decide) (by decide)),
     (h c _ (mem_uc main_arg3 (by decide))).trans (B3_launch m c main_arg3 (by decide) (by decide) (by decide)),
     (h c _ (mem_uc main_arg4 (by decide))).trans (B3_launch m c main_arg4 (by decide) (by decide) (by decide)),
     (h c _ (mem_uc main_arg5 (by decide))).trans (B3_launch m c main_arg5 (by decide) (by decide) (by decide)),
     (h c _ (mem_uc main_arg6 (by decide))).trans (B3_launch m c main_arg6 (by decide) (by decide) (by decide)),
     (h c _ (mem_uc main_arg7 (by decide))).trans (B3_launch m c main_arg7 (by decide) (by decide) (by decide)),
     (h c _ (mem_uc main_arg8 (by decide))).trans (B3_launch m c main_arg8 (by decide) (by decide) (by decide)),
     (h c _ (mem_uc main_arg9 (by decide))).trans (B3_launch m c main_arg9 (by decide) (by decide) (by decide)),
     (h c _ (mem_uc main_arg10 (by decide))).trans (B3_launch m c main_arg10 (by decide) (by decide) (by decide)),
     (h c _ (mem_uc main_arg11 (by decide))).trans (B3_launch m c main_arg11 (by decide) (by decide) (by decide)),
     (h c _ (mem_uc main_arg12 (by decide))).trans (B3_launch m c main_arg12 (by decide) (by decide) (by decide)),
     (h c _ (mem_uc main_arg13 (by decide))).trans (B3_launch m c main_arg13 (by decide) (by decide) (by decide))⟩) (run m ρ)

end Cert.Kernel.Layers

end
-- ==== Proof.KI.Body0.lean ====
import proofs.«168631_g6597069767366_cont_9to1_m_905_4_alg».proof.Proof.Gen.KernelIdeal.Launch
import proofs.«168631_g6597069767366_cont_9to1_m_905_4_alg».proof.Proof.Gen.KernelIdeal.Skeleton
import proofs.«168631_g6597069767366_cont_9to1_m_905_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first layer's kernel body, run on whole staging buffers

At every grid point the body multiplies the point's 400 rows of the adjacency by the support matrix held in the
scratch buffer, adds the bias row, clamps at zero, multiplies by the second weight matrix and stores the 400 × 128
result. At the FIRST point only it first computes the support matrix (features times first weights) and stores it
into the scratch buffer, which later points find as that point left it. -/

/-- The body's branch condition, as the printed scalar chain spells it: the grid coordinate equals zero. -/
abbrev isFirst (i : grid0.Coords) : Prop := (Scalar.cmpi .ne (Scalar.extui (Scalar.cmpi .eq (BitVec.ofNat 32 (i 0).val) 0#32)) 0#32) = 1#1

/-- It holds at point 0 and at no other of the 25 points. -/
theorem isFirst_iff : ∀ t : Fin cfg0.N, isFirst (grid0.coords t) ↔ t.val = 0 :=
  (by decide +kernel : ∀ t : Fin grid0.N, isFirst (grid0.coords t) ↔ t.val = 0)

/-- The whole-buffer rectangles the body loads and stores through. -/
abbrev rX : Rect S10000x128 := Rect.unit (s := S10000x128) ![0, 0] S10000x128.size inb_S10000x128_S10000x128_0_0
abbrev rW : Rect S128x128 := Rect.unit (s := S128x128) ![0, 0] S128x128.size inb_S128x128_S128x128_0_0
abbrev rB : Rect S1x128 := Rect.unit (s := S1x128) ![0, 0] S1x128.size inb_S1x128_S1x128_0_0
abbrev rA : Rect S400x10000 := Rect.unit (s := S400x10000) ![0, 0] S400x10000.size inb_S400x10000_S400x10000_0_0
abbrev rO : Rect S400x128 := Rect.unit (s := S400x128) ![0, 0] S400x128.size inb_S400x128_S400x128_0_0

/-- The support matrix as the first point computes it from the features `x1` and the first weights `x2`. -/
def support (x1 : Vec F S10000x128 .f32) (x2 : Vec F S128x128 .f32) : rX.shape.Idx → Elt F .bf16 :=
  k0_pay1 (View.ld x1 rX) (View.ld x2 rW)

/-- What the scratch buffer holds once the first point has stored the support matrix into all of it. -/
def scratchAfter (x1 : Vec F S10000x128 .f32) (x2 : Vec F S128x128 .f32) : Vec F S10000x128 .bf16 :=
  View.canon [⟨rX, support x1 x2⟩]

/-- Loading the whole scratch buffer back gives the support matrix. -/
theorem ld_scratchAfter (x1 : Vec F S10000x128 .f32) (x2 : Vec F S128x128 .f32) :
    View.ld (scratchAfter x1 x2) rX = support x1 x2 :=
  funext fun j => View.canon_cons_emb rX (support x1 x2) [] j

/-- The output block a point leaves: from its adjacency rows `x5`, the support matrix `p` as loaded, the bias row
    `x3` and the second weights `x4`. -/
def layer1Out (x5 : Vec F S400x10000 .f32) (p : rX.shape.Idx → Elt F .bf16) (x3 : Vec F S1x128 .f32) (x4 : Vec F S128x128 .f32) :
    Vec F S400x128 .bf16 :=
  View.canon [⟨rO, k0_pay2 (View.ld x5 rA) p (View.ld x3 rB) (View.ld x4 rW)⟩]

/-- One store of the whole shape covers it. -/
theorem coverX (p0 : rX.shape.Idx → Elt F .bf16) (y : S10000x128.Idx) :
    ∃ pc ∈ ([⟨rX, p0⟩] : List (View.Piece (Elt F) S10000x128 .bf16)), y ∈ pc.1.set :=
  View.cover_of_tiled [⟨rX, p0⟩] S10000x128.size (by rfl) y
theorem coverO (p0 : rO.shape.Idx → Elt F .bf16) (y : S400x128.Idx) :
    ∃ pc ∈ ([⟨rO, p0⟩] : List (View.Piece (Elt F) S400x128 .bf16)), y ∈ pc.1.set :=
  View.cover_of_tiled [⟨rO, p0⟩] S400x128.size (by rfl) y

set_option maxHeartbeats 1000000 in
/-- AT THE FIRST POINT: the inputs' buffers at contents `x1 … x5`, the output's and the scratch at anything; the body
    leaves the inputs as they were, the scratch at the support matrix and the output block computed from it. -/
theorem body_first (c : Dev nD) (E : Set ℕ) (i : grid0.Coords) (hc : isFirst i)
    (arg1 : Memref sig .tc .vmem S10000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S128x128 .f32) (harg4 : arg4.IsWhole)
    (arg5 : Memref sig .tc .vmem S400x10000 .f32) (harg5 : arg5.IsWhole) (arg6 : Memref sig .tc .vmem S400x128 .bf16) (harg6 : arg6.IsWhole)
    (arg7 : Memref sig .tc .vmem S10000x128 .bf16) (harg7 : arg7.IsWhole)
    (x1 : Vec F S10000x128 .f32) (x2 : Vec F S128x128 .f32) (x3 : Vec F S1x128 .f32) (x4 : Vec F S128x128 .f32) (x5 : Vec F S400x10000 .f32)
    (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5
        ∗ (∃ d, owns (c : Thread nD τ) arg6 fullShare d) ∗ (∃ d, owns (c : Thread nD τ) arg7 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare (layer1Out x5 (support x1 x2) x3 x4)
            ∗ owns (c : Thread nD τ) arg7 fullShare (scratchAfter x1 x2)) -∗ K ⟨⟩))
      ⊢ wp frame (wpE (defs₀ (F := F)) Variants.none c none) E (cc0__layer1_body i arg1 harg1 arg2 harg2 arg3 harg3 arg4 harg4 arg5 harg5 arg6 harg6 arg7 harg7) K := by
  simp only [cc0__layer1_body_eq_skeleton]; unfold cc0__layer1_body_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf1; subst hf2; subst hf3; subst hf4; subst hf5
  sl_exec (disch := first | exact hc)
  sl_step
  sl_unfold_run_names
  rw [View.readCov_cons_toLoadRect]
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (coverO _)
  iexists _; isplitr
  swap; · iexact H7
  ipureintro
  exact View.read_writes_eq_canon _ _ _ (coverX _)

set_option maxHeartbeats 1000000 in
/-- AT A LATER POINT: the scratch buffer at contents `s`; the body leaves every input and the scratch as they were
    and the output block computed from the scratch as loaded. -/
theorem body_later (c : Dev nD) (E : Set ℕ) (i : grid0.Coords) (hc : ¬ isFirst i)
    (arg1 : Memref sig .tc .vmem S10000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S128x128 .f32) (harg4 : arg4.IsWhole)
    (arg5 : Memref sig .tc .vmem S400x10000 .f32) (harg5 : arg5.IsWhole) (arg6 : Memref sig .tc .vmem S400x128 .bf16) (harg6 : arg6.IsWhole)
    (arg7 : Memref sig .tc .vmem S10000x128 .bf16) (harg7 : arg7.IsWhole)
    (x1 : Vec F S10000x128 .f32) (x2 : Vec F S128x128 .f32) (x3 : Vec F S1x128 .f32) (x4 : Vec F S128x128 .f32) (x5 : Vec F S400x10000 .f32)
    (s : Vec F S10000x128 .bf16) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5
        ∗ (∃ d, owns (c : Thread nD τ) arg6 fullShare d) ∗ owns (c : Thread nD τ) arg7 fullShare s
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare (layer1Out x5 (View.ld s rX) x3 x4)
            ∗ owns (c : Thread nD τ) arg7 fullShare s) -∗ K ⟨⟩))
      ⊢ wp frame (wpE (defs₀ (F := F)) Variants.none c none) E (cc0__layer1_body i arg1 harg1 arg2 harg2 arg3 harg3 arg4 harg4 arg5 harg5 arg6 harg6 arg7 harg7) K := by
  simp only [cc0__layer1_body_eq_skeleton]; unfold cc0__layer1_body_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
  subst hf1; subst hf2; subst hf3; subst hf4; subst hf5; subst hf7
  sl_exec (disch := first | exact hc)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (coverO _)
  iexists f7; isplitr; · ipureintro; rfl
  iexact H7

end Cert.KernelIdeal.Layers

end
-- ==== Proof.KI.Data0.lean ====
import proofs.«168631_g6597069767366_cont_9to1_m_905_4_alg».proof.Proof.Gen.KernelIdeal.Launch
import proofs.«168631_g6597069767366_cont_9to1_m_905_4_alg».proof.Proof.Gen.KernelIdeal.Skeleton
import proofs.«168631_g6597069767366_cont_9to1_m_905_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«168631_g6597069767366_cont_9to1_m_905_4_alg».proof.Proof.KI.Body0
set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first layer's region: proof data and body obligation, at the buffer contents `V` the region is entered from

The region has five input windows (features, first weights, bias row, second weights: whole arrays, fetched once;
the adjacency: 400 rows per point) and one output window (400 rows per point, written back at every point), and
a scratch buffer no window stages, which the first point fills with the support matrix and every later point reads. -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The first grid point. -/
abbrev t0 : Fin cfg0.N := ⟨0, by decide⟩

/-- The support matrix the first point computes from the features and the first weights as the region finds them. -/
def support0 (c : Dev nD) : rX.shape.Idx → Elt F .bf16 := support (iblk0 V c 0 t0) (iblk0 V c 1 t0)
/-- What the scratch buffer holds from the first point on. -/
def scratch0 (c : Dev nD) : Vec F S10000x128 .bf16 := scratchAfter (iblk0 V c 0 t0) (iblk0 V c 1 t0)

theorem ld_scratch0 (c : Dev nD) : View.ld (scratch0 V c) rX = support0 V c := ld_scratchAfter _ _

/-- The scratch operand: a whole scoped buffer of the kernel's own. -/
abbrev scM : Memref sig .tc .vmem S10000x128 .bf16 := Memref.whole cc0_scratch0

/-- The core's other scoped buffers that are no staging buffer of this region, each at some contents. -/
def restOthers (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg9_0), ((c : Thread nD τ).loc cc1_stg9_0) ↦{fullShare} f) ∗ (∃ f : Buf (Elt F) ((c : Thread nD τ).loc cc1_stg10_0), ((c : Thread nD τ).loc cc1_stg10_0) ↦{fullShare} f) ∗ (∃ f : Buf (Elt F) ((c : Thread nD τ).loc cc1_stg10_1), ((c : Thread nD τ).loc cc1_stg10_1) ↦{fullShare} f) ∗ (∃ f : Buf (Elt F) ((c : Thread nD τ).loc cc1_stg11_0), ((c : Thread nD τ).loc cc1_stg11_0) ↦{fullShare} f) ∗ (∃ f : Buf (Elt F) ((c : Thread nD τ).loc cc1_stg11_1), ((c : Thread nD τ).loc cc1_stg11_1) ↦{fullShare} f) ∗ (∃ f : Buf (Elt F) ((c : Thread nD τ).loc cc1_stg12_0), ((c : Thread nD τ).loc cc1_stg12_0) ↦{fullShare} f) ∗ (∃ f : Buf (Elt F) ((c : Thread nD τ).loc cc1_stg12_1), ((c : Thread nD τ).loc cc1_stg12_1) ↦{fullShare} f))

/-- The region invariant before the first point: every scoped buffer outside the windows at some contents, the
    generator register at some state — with the scratch buffer named. -/
theorem PhiA0_eq (c : Dev nD) :
    (Pipeline.ΦA spec0 c : sProp 𝕄) = iprop(((∃ d, owns (c : Thread nD τ) scM fullShare d) ∗ restOthers c) ∗ (∃ r, prngReg c r)) := by
  unfold Pipeline.ΦA restOthers; rw [scopedRest0_eq]; simp only [scM, owns_whole]; try rfl

/-- After the first point: the scratch buffer at the support matrix. -/
def PhiLater (c : Dev nD) : sProp 𝕄 :=
  iprop((owns (c : Thread nD τ) scM fullShare (scratch0 V c) ∗ restOthers c) ∗ (∃ r, prngReg c r))

/-- The scratch's named contents forgotten, the later invariant is the first one again. -/
theorem PhiLater_forget (c : Dev nD) : PhiLater V c ⊢ (Pipeline.ΦA spec0 c : sProp 𝕄) := by
  rw [PhiA0_eq]; unfold PhiLater
  iintro ⟨⟨Hs, Hr⟩, Hp⟩
  isplitl [Hs Hr]
  · isplitl [Hs]; · iexists _; iexact Hs
    iexact Hr
  iexact Hp

/-- The invariant before position `k`. -/
def Phi0 (c : Dev nD) (k : Fin (cfg0.N + 1)) : sProp 𝕄 :=
  if k.val = 0 then Pipeline.ΦA spec0 c else PhiLater V c

theorem Phi0_zero (c : Dev nD) (k : Fin (cfg0.N + 1)) (h : k.val = 0) : Phi0 V c k = Pipeline.ΦA spec0 c := by
  unfold Phi0; rw [if_pos h]
theorem Phi0_pos (c : Dev nD) (k : Fin (cfg0.N + 1)) (h : k.val ≠ 0) : Phi0 V c k = PhiLater V c := by
  unfold Phi0; rw [if_neg h]

/-- The proof data of the region on core `c`: the arrays as the region finds them; after the body at point `t`
    each input's buffer at its block and the output's at the block computed from the point's adjacency rows, the
    support matrix, the bias row and the second weights; the invariant carrying the scratch; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => layer1Out (iblk0 V c 4 t) (support0 V c) (iblk0 V c 2 t) (iblk0 V c 3 t)
  Φ k := Phi0 V c k
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = layer1Out (iblk0 V c 4 t) (support0 V c) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

set_option maxHeartbeats 1000000 in
/-- The body at any point. At the first the invariant hands it the scratch at anything and takes it back at the
    support matrix; at a later point it hands the scratch at the support matrix and takes it back unchanged. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl,
    after0_0, after0_1, after0_2, after0_3, after0_4, after0_5,
    show (dat0 V c).Φ t.succ = PhiLater V c from Phi0_pos V c t.succ (Nat.succ_ne_zero _)]
  unfold PhiLater
  by_cases h0 : t.val = 0
  · obtain rfl : t = t0 := Fin.ext h0
    have hc : isFirst (grid0.coords t0) := (isFirst_iff t0).mpr rfl
    rw [show (dat0 V c).Φ (t0 : Fin cfg0.N).castSucc = Pipeline.ΦA spec0 c from Phi0_zero V c (t0 : Fin cfg0.N).castSucc rfl, PhiA0_eq]
    iintro ⟨⟨⟨⟨%ds, Hs⟩, Hrest⟩, Hp⟩, Ho, ⟨%d0, H0⟩, ⟨%d1, H1⟩, ⟨%d2, H2⟩, ⟨%d3, H3⟩, ⟨%d4, H4⟩, ⟨%d5, H5⟩⟩
    iapply (body_first c Set.univ _ hc _ _ _ _ _ _ _ _ _ _ _ _ _ _ (iblk0 V c 0 t0) (iblk0 V c 1 t0) (iblk0 V c 2 t0) (iblk0 V c 3 t0) (iblk0 V c 4 t0) _)
    isplitl [H0]; · iexact H0
    isplitl [H1]; · iexact H1
    isplitl [H2]; · iexact H2
    isplitl [H3]; · iexact H3
    isplitl [H4]; · iexact H4
    isplitl [H5]; · iexists _; iexact H5
    isplitl [Hs]; · iexists _; iexact Hs
    iintro ⟨H0, H1, H2, H3, H4, H5, Hs⟩
    isplitl [Hs Hrest Hp]
    · isplitl [Hs Hrest]
      · isplitl [Hs]; · iexact Hs
        iexact Hrest
      iexact Hp
    isplitl [Ho]; · iexact Ho
    isplitl [H0]; · iexact H0
    isplitl [H1]; · iexact H1
    isplitl [H2]; · iexact H2
    isplitl [H3]; · iexact H3
    isplitl [H4]; · iexact H4
    iexact H5
  · have hc : ¬ isFirst (grid0.coords t) := fun h => h0 ((isFirst_iff t).mp h)
    rw [show (dat0 V c).Φ t.castSucc = PhiLater V c from Phi0_pos V c t.castSucc h0]
    unfold PhiLater
    rw [← ld_scratch0 V c]
    iintro ⟨⟨⟨Hs, Hrest⟩, Hp⟩, Ho, ⟨%d0, H0⟩, ⟨%d1, H1⟩, ⟨%d2, H2⟩, ⟨%d3, H3⟩, ⟨%d4, H4⟩, ⟨%d5, H5⟩⟩
    iapply (body_later c Set.univ _ hc _ _ _ _ _ _ _ _ _ _ _ _ _ _ (iblk0 V c 0 t) (iblk0 V c 1 t) (iblk0 V c 2 t) (iblk0 V c 3 t) (iblk0 V c 4 t) (scratch0 V c) _)
    isplitl [H0]; · iexact H0
    isplitl [H1]; · iexact H1
    isplitl [H2]; · iexact H2
    isplitl [H3]; · iexact H3
    isplitl [H4]; · iexact H4
    isplitl [H5]; · iexists _; iexact H5
    isplitl [Hs]; · iexact Hs
    iintro ⟨H0, H1, H2, H3, H4, H5, Hs⟩
    isplitl [Hs Hrest Hp]
    · isplitl [Hs Hrest]
      · isplitl [Hs]; · iexact Hs
        iexact Hrest
      iexact Hp
    isplitl [Ho]; · iexact Ho
    isplitl [H0]; · iexact H0
    isplitl [H1]; · iexact H1
    isplitl [H2]; · iexact H2
    isplitl [H3]; · iexact H3
    isplitl [H4]; · iexact H4
    iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Layers

end
-- ==== Proof.KI.Body1.lean ====
import proofs.«168631_g6597069767366_cont_9to1_m_905_4_alg».proof.Proof.Gen.KernelIdeal.Launch
import proofs.«168631_g6597069767366_cont_9to1_m_905_4_alg».proof.Proof.Gen.KernelIdeal.Skeleton
import proofs.«168631_g6597069767366_cont_9to1_m_905_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second layer's kernel body, run on whole staging buffers

At every grid point the body multiplies the point's 400 rows of the adjacency by the first layer's output, adds the
bias row and clamps at zero; from that hidden block it computes the two heads — each a product with a weight matrix,
a bias, a clamp at zero, a second product and a second bias — and stores the two 400 × 64 results. -/

abbrev qS : Rect S10000x128 := Rect.unit (s := S10000x128) ![0, 0] S10000x128.size inb_S10000x128_S10000x128_0_0
abbrev qB : Rect S1x128 := Rect.unit (s := S1x128) ![0, 0] S1x128.size inb_S1x128_S1x128_0_0
abbrev qW : Rect S128x64 := Rect.unit (s := S128x64) ![0, 0] S128x64.size inb_S128x64_S128x64_0_0
abbrev qb : Rect S1x64 := Rect.unit (s := S1x64) ![0, 0] S1x64.size inb_S1x64_S1x64_0_0
abbrev qV : Rect S64x64 := Rect.unit (s := S64x64) ![0, 0] S64x64.size inb_S64x64_S64x64_0_0
abbrev qA : Rect S400x10000 := Rect.unit (s := S400x10000) ![0, 0] S400x10000.size inb_S400x10000_S400x10000_0_0
abbrev qO : Rect S400x64 := Rect.unit (s := S400x64) ![0, 0] S400x64.size inb_S400x64_S400x64_0_0

/-- The first head's block at a point: from the first layer's output `y1`, the bias row `y2`, the head's two weight
    matrices and bias rows `y3 … y6` and the point's adjacency rows `y11`. -/
def headOut1 (y1 : Vec F S10000x128 .bf16) (y2 : Vec F S1x128 .f32) (y3 : Vec F S128x64 .f32) (y4 : Vec F S1x64 .f32)
    (y5 : Vec F S64x64 .f32) (y6 : Vec F S1x64 .f32) (y11 : Vec F S400x10000 .f32) : Vec F S400x64 .f32 :=
  View.canon [⟨qO, k1_pay3 (View.ld y11 qA) (View.ld y1 qS) (View.ld y2 qB) (View.ld y3 qW) (View.ld y4 qb) (View.ld y5 qV) (View.ld y6 qb)⟩]

/-- The second head's block at a point, likewise from `y7 … y10`. -/
def headOut2 (y1 : Vec F S10000x128 .bf16) (y2 : Vec F S1x128 .f32) (y7 : Vec F S128x64 .f32) (y8 : Vec F S1x64 .f32)
    (y9 : Vec F S64x64 .f32) (y10 : Vec F S1x64 .f32) (y11 : Vec F S400x10000 .f32) : Vec F S400x64 .f32 :=
  View.canon [⟨qO, k1_pay1 (k1_pay4 (View.ld y11 qA) (View.ld y1 qS) (View.ld y2 qB) (View.ld y7 qW) (View.ld y8 qb)) (View.ld y9 qV) (View.ld y10 qb)⟩]

theorem coverH (p0 : qO.shape.Idx → Elt F .f32) (y : S400x64.Idx) :
    ∃ pc ∈ ([⟨qO, p0⟩] : List (View.Piece (Elt F) S400x64 .f32)), y ∈ pc.1.set :=
  View.cover_of_tiled [⟨qO, p0⟩] S400x64.size (by rfl) y

set_option maxHeartbeats 2000000 in
/-- The eleven inputs' buffers at contents `y1 … y11`, the two outputs' at anything: the body leaves the inputs as
    they were and the outputs at the two heads' blocks. -/
theorem body_heads (c : Dev nD) (E : Set ℕ) (i : grid1.Coords)
    (arg1 : Memref sig .tc .vmem S10000x128 .bf16) (harg1 : arg1.IsWhole) (arg2 : Memref sig .tc .vmem S1x128 .f32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S64x64 .f32) (harg5 : arg5.IsWhole) (arg6 : Memref sig .tc .vmem S1x64 .f32) (harg6 : arg6.IsWhole)
    (arg7 : Memref sig .tc .vmem S128x64 .f32) (harg7 : arg7.IsWhole) (arg8 : Memref sig .tc .vmem S1x64 .f32) (harg8 : arg8.IsWhole)
    (arg9 : Memref sig .tc .vmem S64x64 .f32) (harg9 : arg9.IsWhole) (arg10 : Memref sig .tc .vmem S1x64 .f32) (harg10 : arg10.IsWhole)
    (arg11 : Memref sig .tc .vmem S400x10000 .f32) (harg11 : arg11.IsWhole) (arg12 : Memref sig .tc .vmem S400x64 .f32) (harg12 : arg12.IsWhole)
    (arg13 : Memref sig .tc .vmem S400x64 .f32) (harg13 : arg13.IsWhole)
    (y1 : Vec F S10000x128 .bf16) (y2 : Vec F S1x128 .f32) (y3 : Vec F S128x64 .f32) (y4 : Vec F S1x64 .f32) (y5 : Vec F S64x64 .f32) (y6 : Vec F S1x64 .f32)
    (y7 : Vec F S128x64 .f32) (y8 : Vec F S1x64 .f32) (y9 : Vec F S64x64 .f32) (y10 : Vec F S1x64 .f32) (y11 : Vec F S400x10000 .f32)
    (K : PUnit → sProp 𝕄) :
    iprop(owns (c : Thread nD τ) arg1 fullShare y1 ∗ owns (c : Thread nD τ) arg2 fullShare y2 ∗ owns (c : Thread nD τ) arg3 fullShare y3 ∗ owns (c : Thread nD τ) arg4 fullShare y4 ∗ owns (c : Thread nD τ) arg5 fullShare y5 ∗ owns (c : Thread nD τ) arg6 fullShare y6 ∗ owns (c : Thread nD τ) arg7 fullShare y7 ∗ owns (c : Thread nD τ) arg8 fullShare y8 ∗ owns (c : Thread nD τ) arg9 fullShare y9 ∗ owns (c : Thread nD τ) arg10 fullShare y10 ∗ owns (c : Thread nD τ) arg11 fullShare y11
        ∗ (∃ d, owns (c : Thread nD τ) arg12 fullShare d) ∗ (∃ d, owns (c : Thread nD τ) arg13 fullShare d)
        ∗ (iprop(owns (c : Thread nD τ) arg1 fullShare y1 ∗ owns (c : Thread nD τ) arg2 fullShare y2 ∗ owns (c : Thread nD τ) arg3 fullShare y3 ∗ owns (c : Thread nD τ) arg4 fullShare y4 ∗ owns (c : Thread nD τ) arg5 fullShare y5 ∗ owns (c : Thread nD τ) arg6 fullShare y6 ∗ owns (c : Thread nD τ) arg7 fullShare y7 ∗ owns (c : Thread nD τ) arg8 fullShare y8 ∗ owns (c : Thread nD τ) arg9 fullShare y9 ∗ owns (c : Thread nD τ) arg10 fullShare y10 ∗ owns (c : Thread nD τ) arg11 fullShare y11
            ∗ owns (c : Thread nD τ) arg12 fullShare (headOut1 y1 y2 y3 y4 y5 y6 y11)
            ∗ owns (c : Thread nD τ) arg13 fullShare (headOut2 y1 y2 y7 y8 y9 y10 y11)) -∗ K ⟨⟩))
      ⊢ wp frame (wpE (defs₀ (F := F)) Variants.none c none) E (cc1__layer2_body i arg1 harg1 arg2 harg2 arg3 harg3 arg4 harg4 arg5 harg5 arg6 harg6 arg7 harg7 arg8 harg8 arg9 harg9 arg10 harg10 arg11 harg11 arg12 harg12 arg13 harg13) K := by
  simp only [cc1__layer2_body_eq_skeleton]; unfold cc1__layer2_body_skel
  simp only [k1_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, Hk⟩
  subst hf1; subst hf2; subst hf3; subst hf4; subst hf5; subst hf6; subst hf7; subst hf8; subst hf9; subst hf10; subst hf11
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    exact View.read_writes_eq_canon _ _ _ (coverH _)
  iexists _; isplitr
  swap; · iexact H13
  ipureintro
  exact View.read_writes_eq_canon _ _ _ (coverH _)

end Cert.KernelIdeal.Layers

end
-- ==== Proof.KI.Data1.lean ====
import proofs.«168631_g6597069767366_cont_9to1_m_905_4_alg».proof.Proof.Gen.KernelIdeal.Launch
import proofs.«168631_g6597069767366_cont_9to1_m_905_4_alg».proof.Proof.Gen.KernelIdeal.Skeleton
import proofs.«168631_g6597069767366_cont_9to1_m_905_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«168631_g6597069767366_cont_9to1_m_905_4_alg».proof.Proof.KI.Body1
set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second layer's region: proof data and body obligation, at the buffer contents `V` the region is entered from

Eleven input windows (the first layer's output, the bias row, the two heads' weights and bias rows: whole arrays,
fetched once; the adjacency: 400 rows per point) and two output windows (400 rows per point each, written back at
every point). The body reads only its windows, so the invariant is the region's rest, untouched. -/

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)

/-- The proof data of the region on core `c`: the arrays as the region finds them; after the body at point `t`
    each input's buffer at its block and the two outputs' at the heads' blocks; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => headOut1 (iblk1 V c 0 t) (iblk1 V c 1 t) (iblk1 V c 2 t) (iblk1 V c 3 t) (iblk1 V c 4 t) (iblk1 V c 5 t) (iblk1 V c 10 t)
    | ⟨12, _⟩ => headOut2 (iblk1 V c 0 t) (iblk1 V c 1 t) (iblk1 V c 6 t) (iblk1 V c 7 t) (iblk1 V c 8 t) (iblk1 V c 9 t) (iblk1 V c 10 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t
    = headOut1 (iblk1 V c 0 t) (iblk1 V c 1 t) (iblk1 V c 2 t) (iblk1 V c 3 t) (iblk1 V c 4 t) (iblk1 V c 5 t) (iblk1 V c 10 t) := by dsimp only [dat1]
theorem after1_12 (c : Dev nD) (t : Fin cfg1.N) : (dat1 V c).after 12 t
    = headOut2 (iblk1 V c 0 t) (iblk1 V c 1 t) (iblk1 V c 6 t) (iblk1 V c 7 t) (iblk1 V c 8 t) (iblk1 V c 9 t) (iblk1 V c 10 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t))

set_option maxHeartbeats 1000000 in
/-- The body at any point: the inputs' buffers hold their blocks; the invariant and what the core owes pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (body_heads c Set.univ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Layers

end
-- ==== Proof.KI.Run.lean ====
import proofs.«168631_g6597069767366_cont_9to1_m_905_4_alg».proof.Proof.Gen.KernelIdeal.Launch
import proofs.«168631_g6597069767366_cont_9to1_m_905_4_alg».proof.Proof.Gen.KernelIdeal.Skeleton
import proofs.«168631_g6597069767366_cont_9to1_m_905_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«168631_g6597069767366_cont_9to1_m_905_4_alg».proof.Proof.Gen.KernelIdeal.Regions
import proofs.«168631_g6597069767366_cont_9to1_m_905_4_alg».proof.Proof.KI.Data0
import proofs.«168631_g6597069767366_cont_9to1_m_905_4_alg».proof.Proof.KI.Data1
set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of the whole program

The program is six host reshapes (each bias vector as a one-row matrix), the first layer's region and the second
layer's region. Below: what every unscoped buffer holds at each of the four boundaries, each region's record over
those contents, the program as the list of its three segments, and the launch — every weakly fair execution ends,
and the final memory holds every unscoped buffer at the last boundary's contents. The frame claim is that statement
read at the fourteen argument arrays, which no segment writes. -/

variable (m : (ℓ : Loc nD τ sig) → Buf (Elt F) ℓ) (ρ : Dev nD → PrngReg)

/-! ## The buffer contents at each boundary -/

/-- After the host reshapes (the first region's entry), read at the TensorCore's references. -/
abbrev U1 : (c : Dev nD) → (b : Ref sig .tc) → Buf (Elt F) ((c : Thread nD τ).loc b) := fun c b => Gen.V1 m c b
/-- At the first region's exit: its arrays at what the pipeline leaves, every other buffer as entered. -/
def B2 (c : Dev nD) : Valuation τ sig (Elt F) :=
  Pipeline.withArrays spec0 c (Gen.V1 m c) fun w => (dat0 (U1 m) c).arrAt w cfg0.N
theorem B2_arr (c : Dev nD) (w : Fin cfg0.W) :
    B2 m c (Proc.devRef .tc (Pipeline.arrRef spec0 w)) = (dat0 (U1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = Gen.V1 m c (Proc.devRef .tc b) := by
  unfold B2; exact Pipeline.withArrays_of_ne spec0 c _ _ b hb
abbrev U2 : (c : Dev nD) → (b : Ref sig .tc) → Buf (Elt F) ((c : Thread nD τ).loc b) := fun c b => B2 m c b
theorem hF0 (c : Dev nD) (w : Fin cfg0.W) : (dat0 (U1 m) c).arrAt w cfg0.N = U2 m c (Pipeline.arrRef spec0 w) :=
  (B2_arr m c w).symm
theorem hrest0 (c : Dev nD) : ∀ b, b ∉ Finset.univ.image (Pipeline.arrRef spec0) → U2 m c b = U1 m c b :=
  fun b hb => B2_of_ne m c b fun w e => hb (Finset.mem_image.mpr ⟨w, Finset.mem_univ _, e⟩)

/-- At the second region's exit, likewise. -/
def B3 (c : Dev nD) : Valuation τ sig (Elt F) :=
  Pipeline.withArrays spec1 c (B2 m c) fun w => (dat1 (U2 m) c).arrAt w cfg1.N
theorem B3_arr (c : Dev nD) (w : Fin cfg1.W) :
    B3 m c (Proc.devRef .tc (Pipeline.arrRef spec1 w)) = (dat1 (U2 m) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m c (Proc.devRef .tc b) = B2 m c (Proc.devRef .tc b) := by
  unfold B3; exact Pipeline.withArrays_of_ne spec1 c _ _ b hb
abbrev U3 : (c : Dev nD) → (b : Ref sig .tc) → Buf (Elt F) ((c : Thread nD τ).loc b) := fun c b => B3 m c b
theorem hF1 (c : Dev nD) (w : Fin cfg1.W) : (dat1 (U2 m) c).arrAt w cfg1.N = U3 m c (Pipeline.arrRef spec1 w) :=
  (B3_arr m c w).symm
theorem hrest1 (c : Dev nD) : ∀ b, b ∉ Finset.univ.image (Pipeline.arrRef spec1) → U3 m c b = U2 m c b :=
  fun b hb => B3_of_ne m c b fun w e => hb (Finset.mem_image.mpr ⟨w, Finset.mem_univ _, e⟩)

/-! ## A buffer no region writes back keeps its contents -/

/-- A buffer that is no output window's array of the first region leaves it as it entered: an input window's array
    is read, never written; a buffer outside the windows is bypassed. -/
theorem B2_keep (c : Dev nD) (b : Ref sig .tc) (h : ∀ w : Fin cfg0.W, Pipeline.arrRef spec0 w = b → (cfg0.win w).isOut = false) :
    B2 m c (Proc.devRef .tc b) = Gen.V1 m c (Proc.devRef .tc b) := by
  by_cases hw : ∃ w, Pipeline.arrRef spec0 w = b
  · obtain ⟨w, rfl⟩ := hw
    exact (B2_arr m c w).trans (((dat0 (U1 m) c).arrAt_in w (h w rfl) _).trans (A_eq0 (U1 m) c w))
  · exact B2_of_ne m c b fun w e => hw ⟨w, e⟩
/-- The same for the second region. -/
theorem B3_keep (c : Dev nD) (b : Ref sig .tc) (h : ∀ w : Fin cfg1.W, Pipeline.arrRef spec1 w = b → (cfg1.win w).isOut = false) :
    B3 m c (Proc.devRef .tc b) = B2 m c (Proc.devRef .tc b) := by
  by_cases hw : ∃ w, Pipeline.arrRef spec1 w = b
  · obtain ⟨w, rfl⟩ := hw
    exact (B3_arr m c w).trans (((dat1 (U2 m) c).arrAt_in w (h w rfl) _).trans (A_eq1 (U2 m) c w))
  · exact B3_of_ne m c b fun w e => hw ⟨w, e⟩

/-- A buffer that no reshape writes and that is no output array of either region ends as launched. -/
theorem B3_launch (c : Dev nD) (b : Ref sig .tc) (hh : b ∉ Gen.hostOps0_W)
    (h0 : ∀ w : Fin cfg0.W, Pipeline.arrRef spec0 w = b → (cfg0.win w).isOut = false)
    (h1 : ∀ w : Fin cfg1.W, Pipeline.arrRef spec1 w = b → (cfg1.win w).isOut = false) :
    B3 m c (Proc.devRef .tc b) = m ((c : Thread nD τ).loc b) :=
  (B3_keep m c b h1).trans ((B2_keep m c b h0).trans ((Gen.V1_of m c b hh).trans rfl))

/-! ## The proof data family and the thread state -/

/-- No pipeline has a prefetched table. -/
abbrev padm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) padm p) c
  | ⟨0, _⟩ => fun c => dat0 (U1 m) c
  | ⟨1, _⟩ => fun c => dat1 (U2 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- The host reshapes as a segment from the launch contents. -/
abbrev hseg : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp Gen.hostOps0_fresh) op h) (Gen.V0 m) R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes. -/
abbrev Tₙ (c : Dev nD) : sProp 𝕄 := iprop(StableHlo.held (c : Thread nD τ) (Pipeline.ucRefs τ sig) (B3 m c) ∗ ∃ r, prngReg c r)

/-! ## The regions as segments -/

set_option backward.isDefEq.respectTransparency.types false in
/-- The first layer's region: entered from every unscoped buffer after the reshapes, left with its output array at
    what the write-backs leave. The scratch buffer enters the invariant among the region's scoped rest and comes
    back with it, its contents forgotten. -/
def reg0 : Pipeline.RegionSeg (pcfgs (F := F)) padm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) padm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from Phi0_zero (U1 m) c 0 rfl]; unfold Pipeline.ΦA
    iintro ⟨Hp, -, Hr⟩
    isplitl [Hr]; · iexact Hr
    iexact Hp
  hout c := by
    rw [Pipeline.ownSems0_none, show (pdats m 0 c).Φ (Fin.last _) = PhiLater (U1 m) c from Phi0_pos (U1 m) c (Fin.last cfg0.N) (by decide)]
    refine (PhiLater_forget (U1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) padm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second layer's region: entered from the first region's exit contents, left with its two output arrays at
    what the write-backs leave — the contents the launch reads at the end. -/
def reg1 : Pipeline.RegionSeg (pcfgs (F := F)) padm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U2 m) c).loose
  hwaits := Pipeline.hwaits_of_owed_zero _ _ _ _ L lv 1 fun _ _ => rfl
  pre c := iprop(StableHlo.held (c : Thread nD τ) (Pipeline.ucRefs τ sig) (B2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U2 m c)
  hentry c := by
    rw [Pipeline.ownSems0_none]
    have hsplit := Pipeline.arrays_of_unscopedBufs (p := 1) (pcfgs (F := F)) padm (pdats m) launch1.win launch1.arr_whole c
      ((pdats m 1 c).share_full fun _ => rfl) (U2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) padm (Ix := Unit) (Name := ℕ) (U := UR sig nD τ) (Lvl := ℕ)
      launch1.win launch1.arr_whole c (pdats m) ((pdats m 1 c).share_full fun _ => rfl)
      (U2 m c) (U3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev lsegs : List (Pipeline.Seg (pcfgs (F := F)) padm (pdats m) () defs₀ 𝒱₀ L lv) :=
  [ .host (hseg m), .region (reg0 m), .region (reg1 m) ]
theorem main_run (c : Dev nD) : main (F := F) c = Pipeline.Seg.run (lsegs m) := (main_chain c).trans (by chain_rfl)

set_option backward.isDefEq.respectTransparency.types false in
/-- THE RUN: from any memory with zero counters every weakly fair execution of the program on the TensorCores
    terminates, nothing faulting, and the final memory holds every unscoped buffer at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = B3 m c b) :=
  Pipeline.θ_run_regions_kit (pcfgs (F := F)) padm (pdats m) () cellOf_inj emb₁ defs₀ 𝒱₀ L lv m ρ main (lsegs m)
    (fun c Q => by rw [main_run m c])
    (by simp only [lsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B3 m c b)
    (hfin := fun c s' => by
      iintro ⟨⟨Hh, -⟩, HSI⟩
      unfold StableHlo.held
      imodintro
      iapply (pointsTo_read_all (Pipeline.ucRefs τ sig) (fun b => (((c : Thread nD τ)).1, b)) (B3 m c) s')
      isplitl [Hh] <;> iassumption)
    (hQ := fun s h => h)

/-- THE FRAME: every argument array ends as launched — none is written by a reshape, and none is an output array of
    either region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨(h c _ (mem_uc main_arg0 (by decide))).trans (B3_launch m c main_arg0 (by decide) (by decide) (by decide)),
     (h c _ (mem_uc main_arg1 (by decide))).trans (B3_launch m c main_arg1 (by decide) (by decide) (by decide)),
     (h c _ (mem_uc main_arg2 (by decide))).trans (B3_launch m c main_arg2 (by decide) (by decide) (by decide)),
     (h c _ (mem_uc main_arg3 (by decide))).trans (B3_launch m c main_arg3 (by decide) (by decide) (by decide)),
     (h c _ (mem_uc main_arg4 (by decide))).trans (B3_launch m c main_arg4 (by decide) (by decide) (by decide)),
     (h c _ (mem_uc main_arg5 (by decide))).trans (B3_launch m c main_arg5 (by decide) (by decide) (by decide)),
     (h c _ (mem_uc main_arg6 (by decide))).trans (B3_launch m c main_arg6 (by decide) (by decide) (by decide)),
     (h c _ (mem_uc main_arg7 (by decide))).trans (B3_launch m c main_arg7 (by decide) (by decide) (by decide)),
     (h c _ (mem_uc main_arg8 (by decide))).trans (B3_launch m c main_arg8 (by decide) (by decide) (by decide)),
     (h c _ (mem_uc main_arg9 (by decide))).trans (B3_launch m c main_arg9 (by decide) (by decide) (by decide)),
     (h c _ (mem_uc main_arg10 (by decide))).trans (B3_launch m c main_arg10 (by decide) (by decide) (by decide)),
     (h c _ (mem_uc main_arg11 (by decide))).trans (B3_launch m c main_arg11 (by decide) (by decide) (by decide)),
     (h c _ (mem_uc main_arg12 (by decide))).trans (B3_launch m c main_arg12 (by decide) (by decide) (by decide)),
     (h c _ (mem_uc main_arg13 (by decide))).trans (B3_launch m c main_arg13 (by decide) (by decide) (by decide))⟩) (run m ρ)

end Cert.KernelIdeal.Layers

end
-- ==== Proof.V.Spec.lean ====
import Idealize.ShloMosaic.PureOps.Ideal
import Idealize.ShloMosaic.Lib.ValueIdx

/-! # The two-layer graph encoder on the extended reals

Matrices are functions of a rank-2 index. Every stage of the encoder is one of three operations — a matrix product
(a finite sum over the contracted axis), the addition of a bias row to every row, a clamp at zero — and both
programs are compositions of them; they differ only in that one computes 400 rows at a time. Taking the 400 rows of
a block commutes with each operation in its first operand, which is all the bridge between the two needs. No law of
the extended reals beyond that is used: the two sides are the same sums in the same order. -/

noncomputable section

namespace Cert.Spec

open Idealize.ShloMosaic Idealize.ShloMosaic.ValueIdx

/-- A matrix of extended reals, `M` rows by `N` columns. -/
abbrev Mat (M N : Nat) : Type := (⟨2, ![M, N]⟩ : Shape).Idx → EReal
/-- A vector of extended reals of length `N`. -/
abbrev Row (N : Nat) : Type := (⟨1, ![N]⟩ : Shape).Idx → EReal

/-- The matrix product: entry `(r, c)` is the sum over `k` of `a (r, k) · b (k, c)`. -/
def mm {M K N : Nat} (a : Mat M K) (b : Mat K N) : Mat M N :=
  fun i => ∑ k : Fin K, a (ix2 (i 0) k) * b (ix2 k (i 1))

/-- A bias vector added to every row. -/
def addRow {M N : Nat} (a : Mat M N) (b : Row N) : Mat M N := fun i => a i + b (ix1 (i 1))

/-- The clamp at zero, entry by entry; zero is kept as the float word both programs spell it with. -/
def relu {M N : Nat} (a : Mat M N) : Mat M N := fun i => max (a i) (Ideal.ofBits .f32 0x00000000#32)

/-- A one-row matrix as a vector. -/
def rowOf {N : Nat} (b : Mat 1 N) : Row N := fun q => b (ix2 0 (q 0))

/-- The 400 rows of block `t` of a matrix of 10000 rows. -/
def rowsAt {N : Nat} (t : Nat) (ht : t < 25) (a : Mat 10000 N) : Mat 400 N :=
  fun y => a (ix2 (⟨400 * t + (y 0).val, by have h : (y 0).val < 400 := (y 0).isLt; omega⟩ : Fin 10000) (y 1))

/-- Taking a block's rows commutes with a product on the right, a bias row and the clamp. -/
theorem mm_rowsAt {K N : Nat} (t : Nat) (ht : t < 25) (a : Mat 10000 K) (b : Mat K N) :
    mm (rowsAt t ht a) b = rowsAt t ht (mm a b) := rfl
theorem addRow_rowsAt {N : Nat} (t : Nat) (ht : t < 25) (a : Mat 10000 N) (b : Row N) :
    addRow (rowsAt t ht a) b = rowsAt t ht (addRow a b) := rfl
theorem relu_rowsAt {N : Nat} (t : Nat) (ht : t < 25) (a : Mat 10000 N) :
    relu (rowsAt t ht a) = rowsAt t ht (relu a) := rfl

/-- One graph-convolution layer: the adjacency times the support matrix, plus the bias, clamped. -/
def layer {K : Nat} (adj : Mat 10000 10000) (s : Mat 10000 K) (b : Row K) : Mat 10000 K := relu (addRow (mm adj s) b)

/-- One head: a dense layer clamped at zero, then a second dense layer. -/
def head {M : Nat} (h : Mat M 128) (w1 : Mat 128 64) (b1 : Row 64) (w2 : Mat 64 64) (b2 : Row 64) : Mat M 64 :=
  addRow (mm (relu (addRow (mm h w1) b1)) w2) b2

/-- The first layer's output carrying the second layer's weights: what the first region leaves. -/
def support1 (x : Mat 10000 128) (adj : Mat 10000 10000) (w0 : Mat 128 128) (b0 : Row 128) (w1 : Mat 128 128) : Mat 10000 128 :=
  mm (layer adj (mm x w0) b0) w1

/-- The hidden representation after the second layer. -/
def hidden (x : Mat 10000 128) (adj : Mat 10000 10000) (w0 : Mat 128 128) (b0 : Row 128) (w1 : Mat 128 128) (b1 : Row 128) : Mat 10000 128 :=
  layer adj (support1 x adj w0 b0 w1) b1

theorem head_rowsAt (t : Nat) (ht : t < 25) (h : Mat 10000 128) (w1 : Mat 128 64) (b1 : Row 64) (w2 : Mat 64 64) (b2 : Row 64) :
    head (rowsAt t ht h) w1 b1 w2 b2 = rowsAt t ht (head h w1 b1 w2 b2) := rfl

end Cert.Spec

end
-- ==== Proof.V.RefSpec.lean ====
import proofs.«168631_g6597069767366_cont_9to1_m_905_4_alg».proof.Proof.Gen.ReferenceIdeal.Read
import proofs.«168631_g6597069767366_cont_9to1_m_905_4_alg».proof.Proof.V.Spec

/-! # The reference program's stages as matrix operations

Each operation of the reference, read on the extended reals at an index, is a matrix product (the sum over the
contracted axis), a bias vector added to every row (the two broadcasts compose to "column `c` of the result reads
entry `c` of the vector"), or a clamp at zero; composed, its two results are the two heads of the encoder. -/

noncomputable section

namespace Cert.ReferenceIdeal.RefSpec

open Cert.ReferenceIdeal Cert.ReferenceIdeal.Read
open Idealize.ShloMosaic Idealize.ShloMosaic.ValueIdx

theorem e0 (x0 : (⟨S10000x128, .f32⟩ : BufTy).Contents (Elt Ideal)) (x2 : (⟨S128x128, .f32⟩ : BufTy).Contents (Elt Ideal)) :
    val_main_v0 (F := Ideal) x0 x2 = Cert.Spec.mm (M := 10000) (K := 128) (N := 128) x0 x2 := by
  funext i
  rw [val_main_v0_apply]
  unfold Cert.Spec.mm
  refine Finset.sum_congr rfl fun k _ => ?_
  have el : lidx_main_v0 i k = ix2 (i 0) k := funext fun a => Fin.ext (by match a with | ⟨0, _⟩ => rfl | ⟨1, _⟩ => rfl)
  have er : ridx_main_v0 i k = ix2 k (i 1) := funext fun a => Fin.ext (by match a with | ⟨0, _⟩ => rfl | ⟨1, _⟩ => rfl)
  rw [el, er]
  rfl

theorem e1 (x0 : (⟨S10000x128, .f32⟩ : BufTy).Contents (Elt Ideal)) (x1 : (⟨S10000x10000, .f32⟩ : BufTy).Contents (Elt Ideal)) (x2 : (⟨S128x128, .f32⟩ : BufTy).Contents (Elt Ideal)) :
    val_main_v1 (F := Ideal) x0 x1 x2 = Cert.Spec.mm (M := 10000) (K := 10000) (N := 128) x1 (val_main_v0 (F := Ideal) x0 x2) := by
  funext i
  rw [val_main_v1_apply]
  unfold Cert.Spec.mm
  refine Finset.sum_congr rfl fun k _ => ?_
  have el : lidx_main_v1 i k = ix2 (i 0) k := funext fun a => Fin.ext (by match a with | ⟨0, _⟩ => rfl | ⟨1, _⟩ => rfl)
  have er : ridx_main_v1 i k = ix2 k (i 1) := funext fun a => Fin.ext (by match a with | ⟨0, _⟩ => rfl | ⟨1, _⟩ => rfl)
  rw [el, er]
  rfl

theorem e6 (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) :
    val_main_v6 (F := Ideal) x0 x1 x2 x3 x4 = Cert.Spec.mm (M := 10000) (K := 128) (N := 128) (val_main_v5 (F := Ideal) x0 x1 x2 x3) x4 := by
  funext i
  rw [val_main_v6_apply]
  unfold Cert.Spec.mm
  refine Finset.sum_congr rfl fun k _ => ?_
  have el : lidx_main_v6 i k = ix2 (i 0) k := funext fun a => Fin.ext (by match a with | ⟨0, _⟩ => rfl | ⟨1, _⟩ => rfl)
  have er : ridx_main_v6 i k = ix2 k (i 1) := funext fun a => Fin.ext (by match a with | ⟨0, _⟩ => rfl | ⟨1, _⟩ => rfl)
  rw [el, er]
  rfl

theorem e7 (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) :
    val_main_v7 (F := Ideal) x0 x1 x2 x3 x4 = Cert.Spec.mm (M := 10000) (K := 10000) (N := 128) x1 (val_main_v6 (F := Ideal) x0 x1 x2 x3 x4) := by
  funext i
  rw [val_main_v7_apply]
  unfold Cert.Spec.mm
  refine Finset.sum_congr rfl fun k _ => ?_
  have el : lidx_main_v7 i k = ix2 (i 0) k := funext fun a => Fin.ext (by match a with | ⟨0, _⟩ => rfl | ⟨1, _⟩ => rfl)
  have er : ridx_main_v7 i k = ix2 k (i 1) := funext fun a => Fin.ext (by match a with | ⟨0, _⟩ => rfl | ⟨1, _⟩ => rfl)
  rw [el, er]
  rfl

theorem e12 (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x64, .f32⟩ : BufTy).Contents (Elt Ideal)) :
    val_main_v12 (F := Ideal) x0 x1 x2 x3 x4 x5 x6 = Cert.Spec.mm (M := 10000) (K := 128) (N := 64) (val_main_v11 (F := Ideal) x0 x1 x2 x3 x4 x5) x6 := by
  funext i
  rw [val_main_v12_apply]
  unfold Cert.Spec.mm
  refine Finset.sum_congr rfl fun k _ => ?_
  have el : lidx_main_v12 i k = ix2 (i 0) k := funext fun a => Fin.ext (by match a with | ⟨0, _⟩ => rfl | ⟨1, _⟩ => rfl)
  have er : ridx_main_v12 i k = ix2 k (i 1) := funext fun a => Fin.ext (by match a with | ⟨0, _⟩ => rfl | ⟨1, _⟩ => rfl)
  rw [el, er]
  rfl

theorem e17 (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x64, .f32⟩ : BufTy).Contents (Elt Ideal)) (x7 : (⟨S64, .f32⟩ : BufTy).Contents (Elt Ideal)) (x8 : (⟨S64x64, .f32⟩ : BufTy).Contents (Elt Ideal)) :
    val_main_v17 (F := Ideal) x0 x1 x2 x3 x4 x5 x6 x7 x8 = Cert.Spec.mm (M := 10000) (K := 64) (N := 64) (val_main_v16 (F := Ideal) x0 x1 x2 x3 x4 x5 x6 x7) x8 := by
  funext i
  rw [val_main_v17_apply]
  unfold Cert.Spec.mm
  refine Finset.sum_congr rfl fun k _ => ?_
  have el : lidx_main_v17 i k = ix2 (i 0) k := funext fun a => Fin.ext (by match a with | ⟨0, _⟩ => rfl | ⟨1, _⟩ => rfl)
  have er : ridx_main_v17 i k = ix2 k (i 1) := funext fun a => Fin.ext (by match a with | ⟨0, _⟩ => rfl | ⟨1, _⟩ => rfl)
  rw [el, er]
  rfl

theorem e21 (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x10 : (⟨S128x64, .f32⟩ : BufTy).Contents (Elt Ideal)) :
    val_main_v21 (F := Ideal) x0 x1 x2 x3 x4 x5 x10 = Cert.Spec.mm (M := 10000) (K := 128) (N := 64) (val_main_v11 (F := Ideal) x0 x1 x2 x3 x4 x5) x10 := by
  funext i
  rw [val_main_v21_apply]
  unfold Cert.Spec.mm
  refine Finset.sum_congr rfl fun k _ => ?_
  have el : lidx_main_v21 i k = ix2 (i 0) k := funext fun a => Fin.ext (by match a with | ⟨0, _⟩ => rfl | ⟨1, _⟩ => rfl)
  have er : ridx_main_v21 i k = ix2 k (i 1) := funext fun a => Fin.ext (by match a with | ⟨0, _⟩ => rfl | ⟨1, _⟩ => rfl)
  rw [el, er]
  rfl

theorem e26 (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x10 : (⟨S128x64, .f32⟩ : BufTy).Contents (Elt Ideal)) (x11 : (⟨S64, .f32⟩ : BufTy).Contents (Elt Ideal)) (x12 : (⟨S64x64, .f32⟩ : BufTy).Contents (Elt Ideal)) :
    val_main_v26 (F := Ideal) x0 x1 x2 x3 x4 x5 x10 x11 x12 = Cert.Spec.mm (M := 10000) (K := 64) (N := 64) (val_main_v25 (F := Ideal) x0 x1 x2 x3 x4 x5 x10 x11) x12 := by
  funext i
  rw [val_main_v26_apply]
  unfold Cert.Spec.mm
  refine Finset.sum_congr rfl fun k _ => ?_
  have el : lidx_main_v26 i k = ix2 (i 0) k := funext fun a => Fin.ext (by match a with | ⟨0, _⟩ => rfl | ⟨1, _⟩ => rfl)
  have er : ridx_main_v26 i k = ix2 k (i 1) := funext fun a => Fin.ext (by match a with | ⟨0, _⟩ => rfl | ⟨1, _⟩ => rfl)
  rw [el, er]
  rfl

theorem e4 (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) :
    val_main_v4 (F := Ideal) x0 x1 x2 x3 = Cert.Spec.addRow (M := 10000) (N := 128) (val_main_v1 (F := Ideal) x0 x1 x2) x3 := by
  funext i
  rw [val_main_v4_apply, val_main_v3_apply, val_main_v2_apply]
  have e : idx_main_v2 (idx_main_v3 i) = ix1 (i 1) := funext fun a => Fin.ext (by match a with | ⟨0, _⟩ => rfl)
  rw [e]
  rfl

theorem e10 (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) :
    val_main_v10 (F := Ideal) x0 x1 x2 x3 x4 x5 = Cert.Spec.addRow (M := 10000) (N := 128) (val_main_v7 (F := Ideal) x0 x1 x2 x3 x4) x5 := by
  funext i
  rw [val_main_v10_apply, val_main_v9_apply, val_main_v8_apply]
  have e : idx_main_v8 (idx_main_v9 i) = ix1 (i 1) := funext fun a => Fin.ext (by match a with | ⟨0, _⟩ => rfl)
  rw [e]
  rfl

theorem e15 (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x64, .f32⟩ : BufTy).Contents (Elt Ideal)) (x7 : (⟨S64, .f32⟩ : BufTy).Contents (Elt Ideal)) :
    val_main_v15 (F := Ideal) x0 x1 x2 x3 x4 x5 x6 x7 = Cert.Spec.addRow (M := 10000) (N := 64) (val_main_v12 (F := Ideal) x0 x1 x2 x3 x4 x5 x6) x7 := by
  funext i
  rw [val_main_v15_apply, val_main_v14_apply, val_main_v13_apply]
  have e : idx_main_v13 (idx_main_v14 i) = ix1 (i 1) := funext fun a => Fin.ext (by match a with | ⟨0, _⟩ => rfl)
  rw [e]
  rfl

theorem e20 (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) :
    val_main_v20 (F := Ideal) x0 x1 x2 x3 x4 x5 x6 x7 x8 x9 = Cert.Spec.addRow (M := 10000) (N := 64) (val_main_v17 (F := Ideal) x0 x1 x2 x3 x4 x5 x6 x7 x8) x9 := by
  funext i
  rw [val_main_v20_apply, val_main_v19_apply, val_main_v18_apply]
  have e : idx_main_v18 (idx_main_v19 i) = ix1 (i 1) := funext fun a => Fin.ext (by match a with | ⟨0, _⟩ => rfl)
  rw [e]
  rfl

theorem e24 (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x10 : (⟨S128x64, .f32⟩ : BufTy).Contents (Elt Ideal)) (x11 : (⟨S64, .f32⟩ : BufTy).Contents (Elt Ideal)) :
    val_main_v24 (F := Ideal) x0 x1 x2 x3 x4 x5 x10 x11 = Cert.Spec.addRow (M := 10000) (N := 64) (val_main_v21 (F := Ideal) x0 x1 x2 x3 x4 x5 x10) x11 := by
  funext i
  rw [val_main_v24_apply, val_main_v23_apply, val_main_v22_apply]
  have e : idx_main_v22 (idx_main_v23 i) = ix1 (i 1) := funext fun a => Fin.ext (by match a with | ⟨0, _⟩ => rfl)
  rw [e]
  rfl

theorem e29 (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x10 : (⟨S128x64, .f32⟩ : BufTy).Contents (Elt Ideal)) (x11 : (⟨S64, .f32⟩ : BufTy).Contents (Elt Ideal)) (x12 : (⟨S64x64, .f32⟩ : BufTy).Contents (Elt Ideal)) (x13 : (⟨S64, .f32⟩ : BufTy).Contents (Elt Ideal)) :
    val_main_v29 (F := Ideal) x0 x1 x2 x3 x4 x5 x10 x11 x12 x13 = Cert.Spec.addRow (M := 10000) (N := 64) (val_main_v26 (F := Ideal) x0 x1 x2 x3 x4 x5 x10 x11 x12) x13 := by
  funext i
  rw [val_main_v29_apply, val_main_v28_apply, val_main_v27_apply]
  have e : idx_main_v27 (idx_main_v28 i) = ix1 (i 1) := funext fun a => Fin.ext (by match a with | ⟨0, _⟩ => rfl)
  rw [e]
  rfl

theorem e5 (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) :
    val_main_v5 (F := Ideal) x0 x1 x2 x3 = Cert.Spec.relu (M := 10000) (N := 128) (val_main_v4 (F := Ideal) x0 x1 x2 x3) := by
  funext i
  rw [val_main_v5_apply, val_main_call0_v0_apply, val_main_call0_cst_apply]
  rfl

theorem e11 (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) :
    val_main_v11 (F := Ideal) x0 x1 x2 x3 x4 x5 = Cert.Spec.relu (M := 10000) (N := 128) (val_main_v10 (F := Ideal) x0 x1 x2 x3 x4 x5) := by
  funext i
  rw [val_main_v11_apply, val_main_call1_v0_apply, val_main_call1_cst_apply]
  rfl

theorem e16 (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x64, .f32⟩ : BufTy).Contents (Elt Ideal)) (x7 : (⟨S64, .f32⟩ : BufTy).Contents (Elt Ideal)) :
    val_main_v16 (F := Ideal) x0 x1 x2 x3 x4 x5 x6 x7 = Cert.Spec.relu (M := 10000) (N := 64) (val_main_v15 (F := Ideal) x0 x1 x2 x3 x4 x5 x6 x7) := by
  funext i
  rw [val_main_v16_apply, val_main_call2_v0_apply, val_main_call2_cst_apply]
  rfl

theorem e25 (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x10 : (⟨S128x64, .f32⟩ : BufTy).Contents (Elt Ideal)) (x11 : (⟨S64, .f32⟩ : BufTy).Contents (Elt Ideal)) :
    val_main_v25 (F := Ideal) x0 x1 x2 x3 x4 x5 x10 x11 = Cert.Spec.relu (M := 10000) (N := 64) (val_main_v24 (F := Ideal) x0 x1 x2 x3 x4 x5 x10 x11) := by
  funext i
  rw [val_main_v25_apply, val_main_call3_v0_apply, val_main_call3_cst_apply]
  rfl

/-- The hidden representation after the second layer, as the reference computes it. -/
theorem hidden_eq (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) :
    val_main_v11 (F := Ideal) x0 x1 x2 x3 x4 x5 = Cert.Spec.hidden x0 x1 x2 x3 x4 x5 := by
  rw [e11, e10, e7, e6, e5, e4, e1, e0]
  rfl

/-- The reference's first result is the first head. -/
theorem mean_eq (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) :
    val_main_v20 (F := Ideal) x0 x1 x2 x3 x4 x5 x6 x7 x8 x9 = Cert.Spec.head (M := 10000) (Cert.Spec.hidden x0 x1 x2 x3 x4 x5) x6 x7 x8 x9 := by
  rw [e20, e17, e16, e15, e12, hidden_eq]
  rfl

/-- The reference's second result is the second head. -/
theorem logvar_eq (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x10 : (⟨S128x64, .f32⟩ : BufTy).Contents (Elt Ideal)) (x11 : (⟨S64, .f32⟩ : BufTy).Contents (Elt Ideal)) (x12 : (⟨S64x64, .f32⟩ : BufTy).Contents (Elt Ideal)) (x13 : (⟨S64, .f32⟩ : BufTy).Contents (Elt Ideal)) :
    val_main_v29 (F := Ideal) x0 x1 x2 x3 x4 x5 x10 x11 x12 x13 = Cert.Spec.head (M := 10000) (Cert.Spec.hidden x0 x1 x2 x3 x4 x5) x10 x11 x12 x13 := by
  rw [e29, e26, e25, e24, e21, hidden_eq]
  rfl

end Cert.ReferenceIdeal.RefSpec

end
-- ==== Proof.V.KernelOps.lean ====
import proofs.«168631_g6597069767366_cont_9to1_m_905_4_alg».proof.Proof.Gen.KernelIdeal.Skeleton
import proofs.«168631_g6597069767366_cont_9to1_m_905_4_alg».proof.Proof.V.Spec
import Idealize.ShloMosaic.Lib.Pipeline.Value
import Idealize.ShloMosaic.Lib.ValueIdx
import Idealize.ShloMosaic.PureOps.Ideal.Laws

/-! # The kernel bodies' arithmetic as matrix operations

Each stored value of the two kernel bodies, read on the extended reals, is a composition of matrix products, bias
rows and clamps at zero: a change of float format is the identity there, the matrix unit's product into a zero
accumulator is the plain sum over the contracted axis, the broadcast of a one-row matrix adds that row to every
row, and the maximum with the zero splat is the clamp. -/

noncomputable section

namespace Cert.KernelIdeal.Ops

open Cert.KernelIdeal Cert.KernelIdeal.Gen
open Idealize.ShloMosaic Idealize.ShloMosaic.ValueIdx

/-! ## The five matrix products of the bodies -/

theorem lhs0_xw (i : S10000x128.Idx) (q : dot_S10000x128_S128x128_S10000x128_1_0_0_1_n_n.contr.Idx) : (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem rhs1_xw (i : S10000x128.Idx) (q : dot_S10000x128_S128x128_S10000x128_1_0_0_1_n_n.contr.Idx) : (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl
/-- The 10000 × 128 by 128 × 128 matrix unit product into a zero accumulator is the matrix product. -/
theorem mm_xw {φ₁ φ₂ : FTy} (a : FVec Ideal S10000x128 φ₁) (b : FVec Ideal S128x128 φ₂) :
    matmul dot_S10000x128_S128x128_S10000x128_1_0_0_1_n_n none a b (constant S10000x128 .f32 0x00000000#32) = Spec.mm (M := 10000) (K := 128) (N := 128) a b := by
  funext i
  simp only [matmul]
  rw [Ideal.matmul_constant_zero_apply, ← Equiv.sum_comp (ValueIdx.contrEquiv1 dot_S10000x128_S128x128_S10000x128_1_0_0_1_n_n 128 rfl rfl).symm]
  unfold Spec.mm
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx i ((ValueIdx.contrEquiv1 dot_S10000x128_S128x128_S10000x128_1_0_0_1_n_n 128 rfl rfl).symm k) = ix2 (i 0) k := funext fun a => Fin.ext (by
    match a with
    | ⟨0, _⟩ => exact lhs0_xw _ _
    | ⟨1, _⟩ => exact (dot_S10000x128_S128x128_S10000x128_1_0_0_1_n_n.lhsIdx_val_of_single rfl i _).trans hk)
  have er : dot_S10000x128_S128x128_S10000x128_1_0_0_1_n_n.rhsIdx i ((ValueIdx.contrEquiv1 dot_S10000x128_S128x128_S10000x128_1_0_0_1_n_n 128 rfl rfl).symm k) = ix2 k (i 1) := funext fun a => Fin.ext (by
    match a with
    | ⟨0, _⟩ => exact (dot_S10000x128_S128x128_S10000x128_1_0_0_1_n_n.rhsIdx_val_of_single rfl i _).trans hk
    | ⟨1, _⟩ => exact rhs1_xw _ _)
  rw [el, er]
  rfl

theorem lhs0_adj (i : S400x128.Idx) (q : dot_S400x10000_S10000x128_S400x128_1_0_0_1_n_n.contr.Idx) : (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem rhs1_adj (i : S400x128.Idx) (q : dot_S400x10000_S10000x128_S400x128_1_0_0_1_n_n.contr.Idx) : (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl
/-- The 400 × 10000 by 10000 × 128 matrix unit product into a zero accumulator is the matrix product. -/
theorem mm_adj {φ₁ φ₂ : FTy} (a : FVec Ideal S400x10000 φ₁) (b : FVec Ideal S10000x128 φ₂) :
    matmul dot_S400x10000_S10000x128_S400x128_1_0_0_1_n_n none a b (constant S400x128 .f32 0x00000000#32) = Spec.mm (M := 400) (K := 10000) (N := 128) a b := by
  funext i
  simp only [matmul]
  rw [Ideal.matmul_constant_zero_apply, ← Equiv.sum_comp (ValueIdx.contrEquiv1 dot_S400x10000_S10000x128_S400x128_1_0_0_1_n_n 10000 rfl rfl).symm]
  unfold Spec.mm
  refine Finset.sum_congr rfl fun k _ => ?_
  have hk := ValueIdx.contrEquiv1_symm_val dot_S400x10000_S10000x128_S400x128_1_0_0_1_n_n 10000 rfl rfl k
  have el : dot_S400x10000_S10000x128_S400x128_1_0_0_1_n_n.lhsIdx i ((ValueIdx.contrEquiv1 dot_S400x10000_S10000x128_S400x128_1_0_0_1_n_n 10000 rfl rfl).symm k) = ix2 (i 0) k := funext fun a => Fin.ext (by
    match a with
    | ⟨0, _⟩ => exact lhs0_adj _ _
    | ⟨1, _⟩ => exact (dot_S400x10000_S10000x128_S400x128_1_0_0_1_n_n.lhsIdx_val_of_single rfl i _).trans hk)
  have er : dot_S400x10000_S10000x128_S400x128_1_0_0_1_n_n.rhsIdx i ((ValueIdx.contrEquiv1 dot_S400x10000_S10000x128_S400x128_1_0_0_1_n_n 10000 rfl rfl).symm k) = ix2 k (i 1) := funext fun a => Fin.ext (by
    match a with
    | ⟨0, _⟩ => exact (dot_S400x10000_S10000x128_S400x128_1_0_0_1_n_n.rhsIdx_val_of_single rfl i _).trans hk
    | ⟨1, _⟩ => exact rhs1_adj _ _)
  rw [el, er]
  rfl

theorem lhs0_hw (i : S400x128.Idx) (q : dot_S400x128_S128x128_S400x128_1_0_0_1_n_n.contr.Idx) : (dot_S400x128_S128x128_S400x128_1_0_0_1_n_n.lhsIdx i q 0).val = (i 0).val := by
  unfold DotDims.lhsIdx
  rw [dif_neg (show ¬(0 : Fin S400x128.rank) ∈ dot_S400x128_S128x128_S400x128_1_0_0_1_n_n.lhsBatch by decide), dif_pos (show (0 : Fin S400x128.rank) ∈ dot_S400x128_S128x128_S400x128_1_0_0_1_n_n.lhsNonContracting by decide)]
  rfl
theorem rhs1_hw (i : S400x128.Idx) (q : dot_S400x128_S128x128_S400x128_1_0_0_1_n_n.contr.Idx) : (dot_S400x128_S128x128_S400x128_1_0_0_1_n_n.rhsIdx i q 1).val = (i 1).val := by
  unfold DotDims.rhsIdx
  rw [dif_neg (show ¬(1 : Fin S128x128.rank) ∈ dot_S400x128_S128x128_S400x128_1_0_0_1_n_n.rhsBatch by decide), dif_pos (show (1 : Fin S128x128.rank) ∈ dot_S400x128_S128x128_S400x128_1_0_0_1_n_n.rhsNonContracting by decide)]
  rfl
/-- The 400 × 128 by 128 × 128 matrix unit product into a zero accumulator is the matrix product. -/
theorem mm_hw {φ₁ φ₂ : FTy} (a : FVec Ideal S400x128 φ₁) (b : FVec Ideal S128x128 φ₂) :
    matmul dot_S400x128_S128x128_S400x128_1_0_0_1_n_n none a b (constant S400x128 .f32 0x00000000#32) = Spec.mm (M := 400) (K := 128) (N := 128) a b := by
  funext i
  simp only [matmul]
  rw [Ideal.matmul_constant_zero_apply, ← Equiv.sum_comp (ValueIdx.contrEquiv1 dot_S400x128_S128x128_S400x128_1_0_0_1_n_n 128 rfl rfl).symm]
  unfold Spec.mm
  refine Finset.sum_congr rfl fun k _ => ?_
  have hk := ValueIdx.contrEquiv1_symm_val dot_S400x128_S128x128_S400x128_1_0_0_1_n_n 128 rfl rfl k
  have el : dot_S400x128_S128x128_S400x128_1_0_0_1_n_n.lhsIdx i ((ValueIdx.contrEquiv1 dot_S400x128_S128x128_S400x128_1_0_0_1_n_n 128 rfl rfl).symm k) = ix2 (i 0) k := funext fun a => Fin.ext (by
    match a with
    | ⟨0, _⟩ => exact lhs0_hw _ _
    | ⟨1, _⟩ => exact (dot_S400x128_S128x128_S400x128_1_0_0_1_n_n.lhsIdx_val_of_single rfl i _).trans hk)
  have er : dot_S400x128_S128x128_S400x128_1_0_0_1_n_n.rhsIdx i ((ValueIdx.contrEquiv1 dot_S400x128_S128x128_S400x128_1_0_0_1_n_n 128 rfl rfl).symm k) = ix2 k (i 1) := funext fun a => Fin.ext (by
    match a with
    | ⟨0, _⟩ => exact (dot_S400x128_S128x128_S400x128_1_0_0_1_n_n.rhsIdx_val_of_single rfl i _).trans hk
    | ⟨1, _⟩ => exact rhs1_hw _ _)
  rw [el, er]
  rfl

theorem lhs0_h1 (i : S400x64.Idx) (q : dot_S400x128_S128x64_S400x64_1_0_0_1_n_n.contr.Idx) : (dot_S400x128_S128x64_S400x64_1_0_0_1_n_n.lhsIdx i q 0).val = (i 0).val := by
  unfold DotDims.lhsIdx
  rw [dif_neg (show ¬(0 : Fin S400x128.rank) ∈ dot_S400x128_S128x64_S400x64_1_0_0_1_n_n.lhsBatch by decide), dif_pos (show (0 : Fin S400x128.rank) ∈ dot_S400x128_S128x64_S400x64_1_0_0_1_n_n.lhsNonContracting by decide)]
  rfl
theorem rhs1_h1 (i : S400x64.Idx) (q : dot_S400x128_S128x64_S400x64_1_0_0_1_n_n.contr.Idx) : (dot_S400x128_S128x64_S400x64_1_0_0_1_n_n.rhsIdx i q 1).val = (i 1).val := by
  unfold DotDims.rhsIdx
  rw [dif_neg (show ¬(1 : Fin S128x64.rank) ∈ dot_S400x128_S128x64_S400x64_1_0_0_1_n_n.rhsBatch by decide), dif_pos (show (1 : Fin S128x64.rank) ∈ dot_S400x128_S128x64_S400x64_1_0_0_1_n_n.rhsNonContracting by decide)]
  rfl
/-- The 400 × 128 by 128 × 64 matrix unit product into a zero accumulator is the matrix product. -/
theorem mm_h1 {φ₁ φ₂ : FTy} (a : FVec Ideal S400x128 φ₁) (b : FVec Ideal S128x64 φ₂) :
    matmul dot_S400x128_S128x64_S400x64_1_0_0_1_n_n none a b (constant S400x64 .f32 0x00000000#32) = Spec.mm (M := 400) (K := 128) (N := 64) a b := by
  funext i
  simp only [matmul]
  rw [Ideal.matmul_constant_zero_apply, ← Equiv.sum_comp (ValueIdx.contrEquiv1 dot_S400x128_S128x64_S400x64_1_0_0_1_n_n 128 rfl rfl).symm]
  unfold Spec.mm
  refine Finset.sum_congr rfl fun k _ => ?_
  have hk := ValueIdx.contrEquiv1_symm_val dot_S400x128_S128x64_S400x64_1_0_0_1_n_n 128 rfl rfl k
  have el : dot_S400x128_S128x64_S400x64_1_0_0_1_n_n.lhsIdx i ((ValueIdx.contrEquiv1 dot_S400x128_S128x64_S400x64_1_0_0_1_n_n 128 rfl rfl).symm k) = ix2 (i 0) k := funext fun a => Fin.ext (by
    match a with
    | ⟨0, _⟩ => exact lhs0_h1 _ _
    | ⟨1, _⟩ => exact (dot_S400x128_S128x64_S400x64_1_0_0_1_n_n.lhsIdx_val_of_single rfl i _).trans hk)
  have er : dot_S400x128_S128x64_S400x64_1_0_0_1_n_n.rhsIdx i ((ValueIdx.contrEquiv1 dot_S400x128_S128x64_S400x64_1_0_0_1_n_n 128 rfl rfl).symm k) = ix2 k (i 1) := funext fun a => Fin.ext (by
    match a with
    | ⟨0, _⟩ => exact (dot_S400x128_S128x64_S400x64_1_0_0_1_n_n.rhsIdx_val_of_single rfl i _).trans hk
    | ⟨1, _⟩ => exact rhs1_h1 _ _)
  rw [el, er]
  rfl

theorem lhs0_h2 (i : S400x64.Idx) (q : dot_S400x64_S64x64_S400x64_1_0_0_1_n_n.contr.Idx) : (dot_S400x64_S64x64_S400x64_1_0_0_1_n_n.lhsIdx i q 0).val = (i 0).val := by
  unfold DotDims.lhsIdx
  rw [dif_neg (show ¬(0 : Fin S400x64.rank) ∈ dot_S400x64_S64x64_S400x64_1_0_0_1_n_n.lhsBatch by decide), dif_pos (show (0 : Fin S400x64.rank) ∈ dot_S400x64_S64x64_S400x64_1_0_0_1_n_n.lhsNonContracting by decide)]
  rfl
theorem rhs1_h2 (i : S400x64.Idx) (q : dot_S400x64_S64x64_S400x64_1_0_0_1_n_n.contr.Idx) : (dot_S400x64_S64x64_S400x64_1_0_0_1_n_n.rhsIdx i q 1).val = (i 1).val := by
  unfold DotDims.rhsIdx
  rw [dif_neg (show ¬(1 : Fin S64x64.rank) ∈ dot_S400x64_S64x64_S400x64_1_0_0_1_n_n.rhsBatch by decide), dif_pos (show (1 : Fin S64x64.rank) ∈ dot_S400x64_S64x64_S400x64_1_0_0_1_n_n.rhsNonContracting by decide)]
  rfl
/-- The 400 × 64 by 64 × 64 matrix unit product into a zero accumulator is the matrix product. -/
theorem mm_h2 {φ₁ φ₂ : FTy} (a : FVec Ideal S400x64 φ₁) (b : FVec Ideal S64x64 φ₂) :
    matmul dot_S400x64_S64x64_S400x64_1_0_0_1_n_n none a b (constant S400x64 .f32 0x00000000#32) = Spec.mm (M := 400) (K := 64) (N := 64) a b := by
  funext i
  simp only [matmul]
  rw [Ideal.matmul_constant_zero_apply, ← Equiv.sum_comp (ValueIdx.contrEquiv1 dot_S400x64_S64x64_S400x64_1_0_0_1_n_n 64 rfl rfl).symm]
  unfold Spec.mm
  refine Finset.sum_congr rfl fun k _ => ?_
  have hk := ValueIdx.contrEquiv1_symm_val dot_S400x64_S64x64_S400x64_1_0_0_1_n_n 64 rfl rfl k
  have el : dot_S400x64_S64x64_S400x64_1_0_0_1_n_n.lhsIdx i ((ValueIdx.contrEquiv1 dot_S400x64_S64x64_S400x64_1_0_0_1_n_n 64 rfl rfl).symm k) = ix2 (i 0) k := funext fun a => Fin.ext (by
    match a with
    | ⟨0, _⟩ => exact lhs0_h2 _ _
    | ⟨1, _⟩ => exact (dot_S400x64_S64x64_S400x64_1_0_0_1_n_n.lhsIdx_val_of_single rfl i _).trans hk)
  have er : dot_S400x64_S64x64_S400x64_1_0_0_1_n_n.rhsIdx i ((ValueIdx.contrEquiv1 dot_S400x64_S64x64_S400x64_1_0_0_1_n_n 64 rfl rfl).symm k) = ix2 k (i 1) := funext fun a => Fin.ext (by
    match a with
    | ⟨0, _⟩ => exact (dot_S400x64_S64x64_S400x64_1_0_0_1_n_n.rhsIdx_val_of_single rfl i _).trans hk
    | ⟨1, _⟩ => exact rhs1_h2 _ _)
  rw [el, er]
  rfl

/-! ## Format changes, bias rows and the clamp -/

/-- A change of float format is the identity on the extended reals. -/
theorem truncf_id {s : Shape} {φ ψ : FTy} (a : FVec Ideal s φ) (h : ψ.bits < φ.bits) : (truncf ψ a h : FVec Ideal s ψ) = a := rfl

/-- A one-row matrix broadcast over 400 rows and added: the row added to every row. -/
theorem addRow128 (X : FVec Ideal S400x128 .f32) (v : Vec Ideal S1x128 .f32) :
    addf X (broadcastTo S400x128 v broadcasts_S1x128_S400x128)
      = Spec.addRow (M := 400) (N := 128) X (Spec.rowOf (N := 128) v) := by
  funext i
  show X i + broadcastTo S400x128 v broadcasts_S1x128_S400x128 i = X i + v (ix2 0 (i 1))
  rw [broadcastTo_apply v broadcasts_S1x128_S400x128 i (ix2 0 (i 1)) (fun a => match a with
    | ⟨0, _⟩ => by show (0 : ℕ) = if (1 : ℕ) = 1 then 0 else _; rw [if_pos rfl]
    | ⟨1, _⟩ => by show (i 1).val = if (128 : ℕ) = 1 then 0 else (i 1).val; rw [if_neg (by decide)])]
theorem addRow64 (X : FVec Ideal S400x64 .f32) (v : Vec Ideal S1x64 .f32) :
    addf X (broadcastTo S400x64 v broadcasts_S1x64_S400x64)
      = Spec.addRow (M := 400) (N := 64) X (Spec.rowOf (N := 64) v) := by
  funext i
  show X i + broadcastTo S400x64 v broadcasts_S1x64_S400x64 i = X i + v (ix2 0 (i 1))
  rw [broadcastTo_apply v broadcasts_S1x64_S400x64 i (ix2 0 (i 1)) (fun a => match a with
    | ⟨0, _⟩ => by show (0 : ℕ) = if (1 : ℕ) = 1 then 0 else _; rw [if_pos rfl]
    | ⟨1, _⟩ => by show (i 1).val = if (64 : ℕ) = 1 then 0 else (i 1).val; rw [if_neg (by decide)])]

/-- The maximum with the zero splat is the clamp at zero. -/
theorem relu128 (Y : FVec Ideal S400x128 .f32) :
    maximumf Y (broadcast S400x128 (Ideal.ofBits .f32 0x00000000#32)) = Spec.relu (M := 400) (N := 128) Y := rfl
theorem relu64 (Y : FVec Ideal S400x64 .f32) :
    maximumf Y (broadcast S400x64 (Ideal.ofBits .f32 0x00000000#32)) = Spec.relu (M := 400) (N := 64) Y := rfl

/-! ## The stored values -/

/-- The support matrix: the features times the first weights. -/
theorem pay_support (v17 : Vec Ideal S10000x128 .f32) (v18 : Vec Ideal S128x128 .f32) :
    k0_pay1 v17 v18 = Spec.mm (M := 10000) (K := 128) (N := 128) v17 v18 := by
  unfold k0_pay1
  simp only [truncf_id, shapeCast_self, mm_xw]

/-- The first layer's block: the point's adjacency rows times the support matrix, plus the bias row, clamped, times
    the second weights. -/
theorem pay_layer1 (v3 : Vec Ideal S400x10000 .f32) (v5 : Vec Ideal S10000x128 .bf16) (v7 : Vec Ideal S1x128 .f32) (v13 : Vec Ideal S128x128 .f32) :
    k0_pay2 v3 v5 v7 v13
      = Spec.mm (M := 400) (K := 128) (N := 128) (Spec.relu (Spec.addRow (Spec.mm (M := 400) (K := 10000) (N := 128) v3 v5) (Spec.rowOf (N := 128) v7))) v13 := by
  unfold k0_pay2
  simp only [Scalar.ofBits, truncf_id, shapeCast_self, mm_adj, addRow128, relu128, mm_hw]

/-- The second layer's hidden block. -/
theorem pay_hidden (v0 : Vec Ideal S400x10000 .f32) (v2 : Vec Ideal S10000x128 .bf16) (v5 : Vec Ideal S1x128 .f32) :
    k1_pay2 v0 v2 v5 = Spec.relu (Spec.addRow (Spec.mm (M := 400) (K := 10000) (N := 128) v0 v2) (Spec.rowOf (N := 128) v5)) := by
  unfold k1_pay2
  simp only [Scalar.ofBits, truncf_id, shapeCast_self, mm_adj, addRow128, relu128]

/-- The first head's block, from the hidden block. -/
theorem pay_head1 (v0 : Vec Ideal S400x10000 .f32) (v2 : Vec Ideal S10000x128 .bf16) (v5 : Vec Ideal S1x128 .f32)
    (v11 : Vec Ideal S128x64 .f32) (v13 : Vec Ideal S1x64 .f32) (v19 : Vec Ideal S64x64 .f32) (v21 : Vec Ideal S1x64 .f32) :
    k1_pay3 v0 v2 v5 v11 v13 v19 v21
      = Spec.head (M := 400) (k1_pay2 v0 v2 v5) v11 (Spec.rowOf (N := 64) v13) v19 (Spec.rowOf (N := 64) v21) := by
  unfold k1_pay3 Spec.head
  simp only [Scalar.ofBits, truncf_id, shapeCast_self, mm_h1, addRow64, relu64, mm_h2]

/-- The second head's block, likewise (its last clamp, product and bias are the body's closing statements). -/
theorem pay_head2 (v0 : Vec Ideal S400x10000 .f32) (v2 : Vec Ideal S10000x128 .bf16) (v5 : Vec Ideal S1x128 .f32)
    (v26 : Vec Ideal S128x64 .f32) (v28 : Vec Ideal S1x64 .f32) (v34 : Vec Ideal S64x64 .f32) (v36 : Vec Ideal S1x64 .f32) :
    k1_pay1 (k1_pay4 v0 v2 v5 v26 v28) v34 v36
      = Spec.head (M := 400) (k1_pay2 v0 v2 v5) v26 (Spec.rowOf (N := 64) v28) v34 (Spec.rowOf (N := 64) v36) := by
  unfold k1_pay1 k1_pay4 Spec.head
  simp only [Scalar.ofBits, truncf_id, shapeCast_self, mm_h1, addRow64, relu64, mm_h2]

end Cert.KernelIdeal.Ops

end
-- ==== Proof.V.KernelValue.lean ====
import proofs.«168631_g6597069767366_cont_9to1_m_905_4_alg».proof.Proof.KI.Run
import proofs.«168631_g6597069767366_cont_9to1_m_905_4_alg».proof.Proof.V.KernelOps
import Idealize.ShloMosaic.Lib.Pipeline.Value
import Idealize.ShloMosaic.Lib.StableHlo.Run

/-! # From blocks to arrays

What each region's output array holds after the region, as ONE function of the arrays the region is entered from.
A grid point `t` reads rows `400 t … 400 t + 399` of the adjacency and the whole of every other input, and writes
back rows `400 t … 400 t + 399` of each output; the 25 points cover all 10000 rows. Since taking a block's rows
commutes with every stage, point `t` writes back block `t` of the stage computed on whole arrays, so the output
array ends holding that. -/

set_option maxRecDepth 16384

noncomputable section

namespace Cert.KernelIdeal.Arrays

open Cert.KernelIdeal Cert.KernelIdeal.Gen Cert.KernelIdeal.Layers Cert.KernelIdeal.Ops
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## The stored blocks without their whole-buffer rectangles -/

theorem support_eq (x1 : Vec Ideal S10000x128 .f32) (x2 : Vec Ideal S128x128 .f32) :
    support (F := Ideal) x1 x2 = Cert.Spec.mm (M := 10000) (K := 128) (N := 128) x1 x2 := by
  unfold support
  simp only [View.ld_unit_zero (S := S10000x128) hz, View.ld_unit_zero (S := S128x128) hz]
  exact pay_support x1 x2

theorem layer1Out_eq (x5 : Vec Ideal S400x10000 .f32) (p : Vec Ideal S10000x128 .bf16) (x3 : Vec Ideal S1x128 .f32) (x4 : Vec Ideal S128x128 .f32) :
    layer1Out (F := Ideal) x5 p x3 x4
      = Cert.Spec.mm (M := 400) (K := 128) (N := 128) (Cert.Spec.relu (Cert.Spec.addRow (Cert.Spec.mm (M := 400) (K := 10000) (N := 128) x5 p) (Cert.Spec.rowOf (N := 128) x3))) x4 := by
  unfold layer1Out
  rw [View.canon_unit_zero hz]
  simp only [View.ld_unit_zero (S := S400x10000) hz, View.ld_unit_zero (S := S1x128) hz, View.ld_unit_zero (S := S128x128) hz]
  exact pay_layer1 x5 p x3 x4

theorem headOut1_eq (y1 : Vec Ideal S10000x128 .bf16) (y2 : Vec Ideal S1x128 .f32) (y3 : Vec Ideal S128x64 .f32) (y4 : Vec Ideal S1x64 .f32)
    (y5 : Vec Ideal S64x64 .f32) (y6 : Vec Ideal S1x64 .f32) (y11 : Vec Ideal S400x10000 .f32) :
    headOut1 (F := Ideal) y1 y2 y3 y4 y5 y6 y11
      = Cert.Spec.head (M := 400) (Cert.Spec.relu (Cert.Spec.addRow (Cert.Spec.mm (M := 400) (K := 10000) (N := 128) y11 y1) (Cert.Spec.rowOf (N := 128) y2)))
          y3 (Cert.Spec.rowOf (N := 64) y4) y5 (Cert.Spec.rowOf (N := 64) y6) := by
  unfold headOut1
  rw [View.canon_unit_zero hz]
  simp only [View.ld_unit_zero (S := S400x10000) hz, View.ld_unit_zero (S := S10000x128) hz, View.ld_unit_zero (S := S1x128) hz,
    View.ld_unit_zero (S := S128x64) hz, View.ld_unit_zero (S := S1x64) hz, View.ld_unit_zero (S := S64x64) hz]
  rw [pay_head1, pay_hidden]

theorem headOut2_eq (y1 : Vec Ideal S10000x128 .bf16) (y2 : Vec Ideal S1x128 .f32) (y7 : Vec Ideal S128x64 .f32) (y8 : Vec Ideal S1x64 .f32)
    (y9 : Vec Ideal S64x64 .f32) (y10 : Vec Ideal S1x64 .f32) (y11 : Vec Ideal S400x10000 .f32) :
    headOut2 (F := Ideal) y1 y2 y7 y8 y9 y10 y11
      = Cert.Spec.head (M := 400) (Cert.Spec.relu (Cert.Spec.addRow (Cert.Spec.mm (M := 400) (K := 10000) (N := 128) y11 y1) (Cert.Spec.rowOf (N := 128) y2)))
          y7 (Cert.Spec.rowOf (N := 64) y8) y9 (Cert.Spec.rowOf (N := 64) y10) := by
  unfold headOut2
  rw [View.canon_unit_zero hz]
  simp only [View.ld_unit_zero (S := S400x10000) hz, View.ld_unit_zero (S := S10000x128) hz, View.ld_unit_zero (S := S1x128) hz,
    View.ld_unit_zero (S := S128x64) hz, View.ld_unit_zero (S := S1x64) hz, View.ld_unit_zero (S := S64x64) hz]
  rw [pay_head2, pay_hidden]

/-! ## The first layer's region -/

theorem lt25 (t : Fin cfg0.N) : t.val < 25 := lt_of_lt_of_eq t.isLt N_0

/-- The printed index maps over the grid: the four whole-array inputs stay at block (0, 0); the adjacency and the
    output are at block (t, 0). -/
theorem idx0 : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- A whole-array input's block is the array. -/
theorem blk0_0 (c : Dev nD) (t : Fin cfg0.N) : iblk0 V c 0 t = V c (Pipeline.arrRef spec0 0) := by
  obtain ⟨e0, e1, -⟩ := idx0 t
  funext j
  show V c (Pipeline.arrRef spec0 0) (((cfg0.win 0).blk t).view.emb j) = V c (Pipeline.arrRef spec0 0) j
  refine congrArg (V c (Pipeline.arrRef spec0 0)) (funext fun a => Fin.ext ?_)
  match a with
  | ⟨0, _⟩ => show win0_0.index t (0 : Fin 2) * 10000 + 1 * (j 0).val = (j 0).val; rw [e0]; omega
  | ⟨1, _⟩ => show win0_0.index t (1 : Fin 2) * 128 + 1 * (j 1).val = (j 1).val; rw [e1]; omega
theorem blk0_1 (c : Dev nD) (t : Fin cfg0.N) : iblk0 V c 1 t = V c (Pipeline.arrRef spec0 1) := by
  obtain ⟨-, -, e0, e1, -⟩ := idx0 t
  funext j
  show V c (Pipeline.arrRef spec0 1) (((cfg0.win 1).blk t).view.emb j) = V c (Pipeline.arrRef spec0 1) j
  refine congrArg (V c (Pipeline.arrRef spec0 1)) (funext fun a => Fin.ext ?_)
  match a with
  | ⟨0, _⟩ => show win0_1.index t (0 : Fin 2) * 128 + 1 * (j 0).val = (j 0).val; rw [e0]; omega
  | ⟨1, _⟩ => show win0_1.index t (1 : Fin 2) * 128 + 1 * (j 1).val = (j 1).val; rw [e1]; omega
theorem blk0_2 (c : Dev nD) (t : Fin cfg0.N) : iblk0 V c 2 t = V c (Pipeline.arrRef spec0 2) := by
  obtain ⟨-, -, -, -, e0, e1, -⟩ := idx0 t
  funext j
  show V c (Pipeline.arrRef spec0 2) (((cfg0.win 2).blk t).view.emb j) = V c (Pipeline.arrRef spec0 2) j
  refine congrArg (V c (Pipeline.arrRef spec0 2)) (funext fun a => Fin.ext ?_)
  match a with
  | ⟨0, _⟩ => show win0_2.index t (0 : Fin 2) * 1 + 1 * (j 0).val = (j 0).val; rw [e0]; omega
  | ⟨1, _⟩ => show win0_2.index t (1 : Fin 2) * 128 + 1 * (j 1).val = (j 1).val; rw [e1]; omega
theorem blk0_3 (c : Dev nD) (t : Fin cfg0.N) : iblk0 V c 3 t = V c (Pipeline.arrRef spec0 3) := by
  obtain ⟨-, -, -, -, -, -, e0, e1, -⟩ := idx0 t
  funext j
  show V c (Pipeline.arrRef spec0 3) (((cfg0.win 3).blk t).view.emb j) = V c (Pipeline.arrRef spec0 3) j
  refine congrArg (V c (Pipeline.arrRef spec0 3)) (funext fun a => Fin.ext ?_)
  match a with
  | ⟨0, _⟩ => show win0_3.index t (0 : Fin 2) * 128 + 1 * (j 0).val = (j 0).val; rw [e0]; omega
  | ⟨1, _⟩ => show win0_3.index t (1 : Fin 2) * 128 + 1 * (j 1).val = (j 1).val; rw [e1]; omega
/-- The adjacency's block at point `t` is its rows `400 t … 400 t + 399`. -/
theorem blk0_4 (c : Dev nD) (t : Fin cfg0.N) :
    iblk0 V c 4 t = Cert.Spec.rowsAt (N := 10000) t.val (lt25 t) (V c (Pipeline.arrRef spec0 4)) := by
  obtain ⟨-, -, -, -, -, -, -, -, e0, e1, -⟩ := idx0 t
  funext j
  unfold Cert.Spec.rowsAt
  show V c (Pipeline.arrRef spec0 4) (((cfg0.win 4).blk t).view.emb j) = V c (Pipeline.arrRef spec0 4) _
  refine congrArg (V c (Pipeline.arrRef spec0 4)) (funext fun a => Fin.ext ?_)
  match a with
  | ⟨0, _⟩ => show win0_4.index t (0 : Fin 2) * 400 + 1 * (j 0).val = 400 * t.val + (j 0).val; rw [e0]; omega
  | ⟨1, _⟩ => show win0_4.index t (1 : Fin 2) * 10000 + 1 * (j 1).val = (j 1).val; rw [e1]; omega

/-- What the first layer's output array ends holding: the first layer's result times the second weights, of the
    arrays the region is entered from. -/
def G1 (c : Dev nD) : S10000x128.Idx → EReal :=
  Cert.Spec.support1 (V c (Pipeline.arrRef spec0 0)) (V c (Pipeline.arrRef spec0 4)) (V c (Pipeline.arrRef spec0 1))
    (Cert.Spec.rowOf (N := 128) (V c (Pipeline.arrRef spec0 2))) (V c (Pipeline.arrRef spec0 3))

/-- Point `t` writes back rows `400 t … 400 t + 399` of it. -/
theorem flushed0_eq (c : Dev nD) (t : Fin cfg0.N) :
    (dat0 V c).flushed 5 t = ((cfg0.win 5).blk t).view.read (Elt Ideal) (G1 V c) := by
  show (cfg0.win 5).cut (grid0.coords t) ((dat0 V c).after 5 t) = _
  rw [after0_5]
  unfold support0
  rw [support_eq, layer1Out_eq, blk0_0, blk0_1, blk0_2, blk0_3, blk0_4,
    Cert.Spec.mm_rowsAt, Cert.Spec.addRow_rowsAt, Cert.Spec.relu_rowsAt, Cert.Spec.mm_rowsAt]
  obtain ⟨-, -, -, -, -, -, -, -, -, -, e0, e1⟩ := idx0 t
  funext j
  unfold Cert.Spec.rowsAt
  show G1 V c _ = G1 V c (((cfg0.win 5).blk t).view.emb j)
  refine congrArg (G1 V c) (funext fun a => Fin.ext ?_)
  match a with
  | ⟨0, _⟩ => show 400 * t.val + (j 0).val = win0_5.index t (0 : Fin 2) * 400 + 1 * (j 0).val; rw [e0]; omega
  | ⟨1, _⟩ => show (j 1).val = win0_5.index t (1 : Fin 2) * 128 + 1 * (j 1).val; rw [e1]; omega

/-- An index of the output array is in point `t`'s block iff each coordinate is in the block's range. -/
theorem mem_blk0 (t : Fin cfg0.N) (i : S10000x128.Idx) :
    i ∈ ((cfg0.win 5).blk t).view.set ↔ ∀ a : Fin 2, win0_5.index t a * S400x128.size a ≤ (i a).val ∧ (i a).val < win0_5.index t a * S400x128.size a + S400x128.size a := by
  show i ∈ ((View.whole main_call0_v6).slice (win0_5.rect t)).set ↔ _
  rw [View.set_slice_whole, Rect.mem_set_unit]
  exact Iff.rfl

/-- Every row is in the block of the point `row / 400`. -/
theorem cover0 (i : S10000x128.Idx) : ∃ t : Fin cfg0.N, (cfg0.win 5).flush t = true ∧ i ∈ ((cfg0.win 5).blk t).view.set := by
  have hi0 : (i 0).val < 10000 := (i 0).isLt
  have hi1 : (i 1).val < 128 := (i 1).isLt
  let t : Fin cfg0.N := Fin.cast N_0.symm ⟨(i 0).val / 400, by omega⟩
  have ht : t.val = (i 0).val / 400 := rfl
  obtain ⟨-, -, -, -, -, -, -, -, -, -, e0, e1⟩ := idx0 t
  refine ⟨t, flush0_5 t, ?_⟩
  rw [mem_blk0]
  intro a
  match a with
  | ⟨0, _⟩ => show win0_5.index t (0 : Fin 2) * 400 ≤ (i 0).val ∧ (i 0).val < win0_5.index t (0 : Fin 2) * 400 + 400; rw [e0, ht]; omega
  | ⟨1, _⟩ => show win0_5.index t (1 : Fin 2) * 128 ≤ (i 1).val ∧ (i 1).val < win0_5.index t (1 : Fin 2) * 128 + 128; rw [e1]; omega

/-- THE FIRST REGION'S OUTPUT ARRAY after the region. -/
theorem final0 (c : Dev nD) : (dat0 V c).arrAt 5 cfg0.N = G1 V c :=
  (dat0 V c).arrAt_eq_of_cover 5 (G1 V c) (fun t _ => flushed0_eq V c t) (cover0)

/-! ## The second layer's region -/

theorem lt25' (t : Fin cfg1.N) : t.val < 25 := lt_of_lt_of_eq t.isLt N_1

/-- The printed index maps over the grid: the ten whole-array inputs stay at block (0, 0); the adjacency and the two
    outputs are at block (t, 0). -/
theorem idx1 : ∀ t : Fin cfg1.N, win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_10.index t (0 : Fin 2) = t.val ∧ win1_10.index t (1 : Fin 2) = 0
    ∧ win1_11.index t (0 : Fin 2) = t.val ∧ win1_11.index t (1 : Fin 2) = 0
    ∧ win1_12.index t (0 : Fin 2) = t.val ∧ win1_12.index t (1 : Fin 2) = 0 :=
  (by decide +kernel : ∀ t : Fin grid1.N, _)

theorem blk1_0 (c : Dev nD) (t : Fin cfg1.N) : iblk1 V c 0 t = V c (Pipeline.arrRef spec1 0) := by
  obtain ⟨e0, e1, -⟩ := idx1 t
  funext j
  show V c (Pipeline.arrRef spec1 0) (((cfg1.win 0).blk t).view.emb j) = V c (Pipeline.arrRef spec1 0) j
  refine congrArg (V c (Pipeline.arrRef spec1 0)) (funext fun a => Fin.ext ?_)
  match a with
  | ⟨0, _⟩ => show win1_0.index t (0 : Fin 2) * 10000 + 1 * (j 0).val = (j 0).val; rw [e0]; omega
  | ⟨1, _⟩ => show win1_0.index t (1 : Fin 2) * 128 + 1 * (j 1).val = (j 1).val; rw [e1]; omega
theorem blk1_1 (c : Dev nD) (t : Fin cfg1.N) : iblk1 V c 1 t = V c (Pipeline.arrRef spec1 1) := by
  obtain ⟨-, -, e0, e1, -⟩ := idx1 t
  funext j
  show V c (Pipeline.arrRef spec1 1) (((cfg1.win 1).blk t).view.emb j) = V c (Pipeline.arrRef spec1 1) j
  refine congrArg (V c (Pipeline.arrRef spec1 1)) (funext fun a => Fin.ext ?_)
  match a with
  | ⟨0, _⟩ => show win1_1.index t (0 : Fin 2) * 1 + 1 * (j 0).val = (j 0).val; rw [e0]; omega
  | ⟨1, _⟩ => show win1_1.index t (1 : Fin 2) * 128 + 1 * (j 1).val = (j 1).val; rw [e1]; omega
theorem blk1_2 (c : Dev nD) (t : Fin cfg1.N) : iblk1 V c 2 t = V c (Pipeline.arrRef spec1 2) := by
  obtain ⟨-, -, -, -, e0, e1, -⟩ := idx1 t
  funext j
  show V c (Pipeline.arrRef spec1 2) (((cfg1.win 2).blk t).view.emb j) = V c (Pipeline.arrRef spec1 2) j
  refine congrArg (V c (Pipeline.arrRef spec1 2)) (funext fun a => Fin.ext ?_)
  match a with
  | ⟨0, _⟩ => show win1_2.index t (0 : Fin 2) * 128 + 1 * (j 0).val = (j 0).val; rw [e0]; omega
  | ⟨1, _⟩ => show win1_2.index t (1 : Fin 2) * 64 + 1 * (j 1).val = (j 1).val; rw [e1]; omega
theorem blk1_3 (c : Dev nD) (t : Fin cfg1.N) : iblk1 V c 3 t = V c (Pipeline.arrRef spec1 3) := by
  obtain ⟨-, -, -, -, -, -, e0, e1, -⟩ := idx1 t
  funext j
  show V c (Pipeline.arrRef spec1 3) (((cfg1.win 3).blk t).view.emb j) = V c (Pipeline.arrRef spec1 3) j
  refine congrArg (V c (Pipeline.arrRef spec1 3)) (funext fun a => Fin.ext ?_)
  match a with
  | ⟨0, _⟩ => show win1_3.index t (0 : Fin 2) * 1 + 1 * (j 0).val = (j 0).val; rw [e0]; omega
  | ⟨1, _⟩ => show win1_3.index t (1 : Fin 2) * 64 + 1 * (j 1).val = (j 1).val; rw [e1]; omega
theorem blk1_4 (c : Dev nD) (t : Fin cfg1.N) : iblk1 V c 4 t = V c (Pipeline.arrRef spec1 4) := by
  obtain ⟨-, -, -, -, -, -, -, -, e0, e1, -⟩ := idx1 t
  funext j
  show V c (Pipeline.arrRef spec1 4) (((cfg1.win 4).blk t).view.emb j) = V c (Pipeline.arrRef spec1 4) j
  refine congrArg (V c (Pipeline.arrRef spec1 4)) (funext fun a => Fin.ext ?_)
  match a with
  | ⟨0, _⟩ => show win1_4.index t (0 : Fin 2) * 64 + 1 * (j 0).val = (j 0).val; rw [e0]; omega
  | ⟨1, _⟩ => show win1_4.index t (1 : Fin 2) * 64 + 1 * (j 1).val = (j 1).val; rw [e1]; omega
theorem blk1_5 (c : Dev nD) (t : Fin cfg1.N) : iblk1 V c 5 t = V c (Pipeline.arrRef spec1 5) := by
  obtain ⟨-, -, -, -, -, -, -, -, -, -, e0, e1, -⟩ := idx1 t
  funext j
  show V c (Pipeline.arrRef spec1 5) (((cfg1.win 5).blk t).view.emb j) = V c (Pipeline.arrRef spec1 5) j
  refine congrArg (V c (Pipeline.arrRef spec1 5)) (funext fun a => Fin.ext ?_)
  match a with
  | ⟨0, _⟩ => show win1_5.index t (0 : Fin 2) * 1 + 1 * (j 0).val = (j 0).val; rw [e0]; omega
  | ⟨1, _⟩ => show win1_5.index t (1 : Fin 2) * 64 + 1 * (j 1).val = (j 1).val; rw [e1]; omega
theorem blk1_6 (c : Dev nD) (t : Fin cfg1.N) : iblk1 V c 6 t = V c (Pipeline.arrRef spec1 6) := by
  obtain ⟨-, -, -, -, -, -, -, -, -, -, -, -, e0, e1, -⟩ := idx1 t
  funext j
  show V c (Pipeline.arrRef spec1 6) (((cfg1.win 6).blk t).view.emb j) = V c (Pipeline.arrRef spec1 6) j
  refine congrArg (V c (Pipeline.arrRef spec1 6)) (funext fun a => Fin.ext ?_)
  match a with
  | ⟨0, _⟩ => show win1_6.index t (0 : Fin 2) * 128 + 1 * (j 0).val = (j 0).val; rw [e0]; omega
  | ⟨1, _⟩ => show win1_6.index t (1 : Fin 2) * 64 + 1 * (j 1).val = (j 1).val; rw [e1]; omega
theorem blk1_7 (c : Dev nD) (t : Fin cfg1.N) : iblk1 V c 7 t = V c (Pipeline.arrRef spec1 7) := by
  obtain ⟨-, -, -, -, -, -, -, -, -, -, -, -, -, -, e0, e1, -⟩ := idx1 t
  funext j
  show V c (Pipeline.arrRef spec1 7) (((cfg1.win 7).blk t).view.emb j) = V c (Pipeline.arrRef spec1 7) j
  refine congrArg (V c (Pipeline.arrRef spec1 7)) (funext fun a => Fin.ext ?_)
  match a with
  | ⟨0, _⟩ => show win1_7.index t (0 : Fin 2) * 1 + 1 * (j 0).val = (j 0).val; rw [e0]; omega
  | ⟨1, _⟩ => show win1_7.index t (1 : Fin 2) * 64 + 1 * (j 1).val = (j 1).val; rw [e1]; omega
theorem blk1_8 (c : Dev nD) (t : Fin cfg1.N) : iblk1 V c 8 t = V c (Pipeline.arrRef spec1 8) := by
  obtain ⟨-, -, -, -, -, -, -, -, -, -, -, -, -, -, -, -, e0, e1, -⟩ := idx1 t
  funext j
  show V c (Pipeline.arrRef spec1 8) (((cfg1.win 8).blk t).view.emb j) = V c (Pipeline.arrRef spec1 8) j
  refine congrArg (V c (Pipeline.arrRef spec1 8)) (funext fun a => Fin.ext ?_)
  match a with
  | ⟨0, _⟩ => show win1_8.index t (0 : Fin 2) * 64 + 1 * (j 0).val = (j 0).val; rw [e0]; omega
  | ⟨1, _⟩ => show win1_8.index t (1 : Fin 2) * 64 + 1 * (j 1).val = (j 1).val; rw [e1]; omega
theorem blk1_9 (c : Dev nD) (t : Fin cfg1.N) : iblk1 V c 9 t = V c (Pipeline.arrRef spec1 9) := by
  obtain ⟨-, -, -, -, -, -, -, -, -, -, -, -, -, -, -, -, -, -, e0, e1, -⟩ := idx1 t
  funext j
  show V c (Pipeline.arrRef spec1 9) (((cfg1.win 9).blk t).view.emb j) = V c (Pipeline.arrRef spec1 9) j
  refine congrArg (V c (Pipeline.arrRef spec1 9)) (funext fun a => Fin.ext ?_)
  match a with
  | ⟨0, _⟩ => show win1_9.index t (0 : Fin 2) * 1 + 1 * (j 0).val = (j 0).val; rw [e0]; omega
  | ⟨1, _⟩ => show win1_9.index t (1 : Fin 2) * 64 + 1 * (j 1).val = (j 1).val; rw [e1]; omega
theorem blk1_10 (c : Dev nD) (t : Fin cfg1.N) :
    iblk1 V c 10 t = Cert.Spec.rowsAt (N := 10000) t.val (lt25' t) (V c (Pipeline.arrRef spec1 10)) := by
  obtain ⟨-, -, -, -, -, -, -, -, -, -, -, -, -, -, -, -, -, -, -, -, e0, e1, -⟩ := idx1 t
  funext j
  unfold Cert.Spec.rowsAt
  show V c (Pipeline.arrRef spec1 10) (((cfg1.win 10).blk t).view.emb j) = V c (Pipeline.arrRef spec1 10) _
  refine congrArg (V c (Pipeline.arrRef spec1 10)) (funext fun a => Fin.ext ?_)
  match a with
  | ⟨0, _⟩ => show win1_10.index t (0 : Fin 2) * 400 + 1 * (j 0).val = 400 * t.val + (j 0).val; rw [e0]; omega
  | ⟨1, _⟩ => show win1_10.index t (1 : Fin 2) * 10000 + 1 * (j 1).val = (j 1).val; rw [e1]; omega

/-- The hidden representation after the second layer, of the arrays the region is entered from. -/
def H2 (c : Dev nD) : S10000x128.Idx → EReal :=
  Cert.Spec.layer (V c (Pipeline.arrRef spec1 10)) (V c (Pipeline.arrRef spec1 0)) (Cert.Spec.rowOf (N := 128) (V c (Pipeline.arrRef spec1 1)))
/-- What the two output arrays end holding: the two heads of it. -/
def Gmean (c : Dev nD) : S10000x64.Idx → EReal :=
  Cert.Spec.head (M := 10000) (H2 V c) (V c (Pipeline.arrRef spec1 2)) (Cert.Spec.rowOf (N := 64) (V c (Pipeline.arrRef spec1 3)))
    (V c (Pipeline.arrRef spec1 4)) (Cert.Spec.rowOf (N := 64) (V c (Pipeline.arrRef spec1 5)))
def Glogvar (c : Dev nD) : S10000x64.Idx → EReal :=
  Cert.Spec.head (M := 10000) (H2 V c) (V c (Pipeline.arrRef spec1 6)) (Cert.Spec.rowOf (N := 64) (V c (Pipeline.arrRef spec1 7)))
    (V c (Pipeline.arrRef spec1 8)) (Cert.Spec.rowOf (N := 64) (V c (Pipeline.arrRef spec1 9)))

theorem flushed1_mean (c : Dev nD) (t : Fin cfg1.N) :
    (dat1 V c).flushed 11 t = ((cfg1.win 11).blk t).view.read (Elt Ideal) (Gmean V c) := by
  show (cfg1.win 11).cut (grid1.coords t) ((dat1 V c).after 11 t) = _
  rw [after1_11, headOut1_eq, blk1_0, blk1_1, blk1_2, blk1_3, blk1_4, blk1_5, blk1_10,
    Cert.Spec.mm_rowsAt, Cert.Spec.addRow_rowsAt, Cert.Spec.relu_rowsAt, Cert.Spec.head_rowsAt]
  obtain ⟨-, -, -, -, -, -, -, -, -, -, -, -, -, -, -, -, -, -, -, -, -, -, e0, e1, -⟩ := idx1 t
  funext j
  unfold Cert.Spec.rowsAt
  show Gmean V c _ = Gmean V c (((cfg1.win 11).blk t).view.emb j)
  refine congrArg (Gmean V c) (funext fun a => Fin.ext ?_)
  match a with
  | ⟨0, _⟩ => show 400 * t.val + (j 0).val = win1_11.index t (0 : Fin 2) * 400 + 1 * (j 0).val; rw [e0]; omega
  | ⟨1, _⟩ => show (j 1).val = win1_11.index t (1 : Fin 2) * 64 + 1 * (j 1).val; rw [e1]; omega

theorem flushed1_logvar (c : Dev nD) (t : Fin cfg1.N) :
    (dat1 V c).flushed 12 t = ((cfg1.win 12).blk t).view.read (Elt Ideal) (Glogvar V c) := by
  show (cfg1.win 12).cut (grid1.coords t) ((dat1 V c).after 12 t) = _
  rw [after1_12, headOut2_eq, blk1_0, blk1_1, blk1_6, blk1_7, blk1_8, blk1_9, blk1_10,
    Cert.Spec.mm_rowsAt, Cert.Spec.addRow_rowsAt, Cert.Spec.relu_rowsAt, Cert.Spec.head_rowsAt]
  obtain ⟨-, -, -, -, -, -, -, -, -, -, -, -, -, -, -, -, -, -, -, -, -, -, -, -, e0, e1⟩ := idx1 t
  funext j
  unfold Cert.Spec.rowsAt
  show Glogvar V c _ = Glogvar V c (((cfg1.win 12).blk t).view.emb j)
  refine congrArg (Glogvar V c) (funext fun a => Fin.ext ?_)
  match a with
  | ⟨0, _⟩ => show 400 * t.val + (j 0).val = win1_12.index t (0 : Fin 2) * 400 + 1 * (j 0).val; rw [e0]; omega
  | ⟨1, _⟩ => show (j 1).val = win1_12.index t (1 : Fin 2) * 64 + 1 * (j 1).val; rw [e1]; omega

theorem mem_blk1_11 (t : Fin cfg1.N) (i : S10000x64.Idx) :
    i ∈ ((cfg1.win 11).blk t).view.set ↔ ∀ a : Fin 2, win1_11.index t a * S400x64.size a ≤ (i a).val ∧ (i a).val < win1_11.index t a * S400x64.size a + S400x64.size a := by
  show i ∈ ((View.whole main_v0_0).slice (win1_11.rect t)).set ↔ _
  rw [View.set_slice_whole, Rect.mem_set_unit]
  exact Iff.rfl
theorem mem_blk1_12 (t : Fin cfg1.N) (i : S10000x64.Idx) :
    i ∈ ((cfg1.win 12).blk t).view.set ↔ ∀ a : Fin 2, win1_12.index t a * S400x64.size a ≤ (i a).val ∧ (i a).val < win1_12.index t a * S400x64.size a + S400x64.size a := by
  show i ∈ ((View.whole main_v0_1).slice (win1_12.rect t)).set ↔ _
  rw [View.set_slice_whole, Rect.mem_set_unit]
  exact Iff.rfl

theorem cover1_11 (i : S10000x64.Idx) : ∃ t : Fin cfg1.N, (cfg1.win 11).flush t = true ∧ i ∈ ((cfg1.win 11).blk t).view.set := by
  have hi0 : (i 0).val < 10000 := (i 0).isLt
  have hi1 : (i 1).val < 64 := (i 1).isLt
  let t : Fin cfg1.N := Fin.cast N_1.symm ⟨(i 0).val / 400, by omega⟩
  have ht : t.val = (i 0).val / 400 := rfl
  obtain ⟨-, -, -, -, -, -, -, -, -, -, -, -, -, -, -, -, -, -, -, -, -, -, e0, e1, -⟩ := idx1 t
  refine ⟨t, flush1_11 t, ?_⟩
  rw [mem_blk1_11]
  intro a
  match a with
  | ⟨0, _⟩ => show win1_11.index t (0 : Fin 2) * 400 ≤ (i 0).val ∧ (i 0).val < win1_11.index t (0 : Fin 2) * 400 + 400; rw [e0, ht]; omega
  | ⟨1, _⟩ => show win1_11.index t (1 : Fin 2) * 64 ≤ (i 1).val ∧ (i 1).val < win1_11.index t (1 : Fin 2) * 64 + 64; rw [e1]; omega
theorem cover1_12 (i : S10000x64.Idx) : ∃ t : Fin cfg1.N, (cfg1.win 12).flush t = true ∧ i ∈ ((cfg1.win 12).blk t).view.set := by
  have hi0 : (i 0).val < 10000 := (i 0).isLt
  have hi1 : (i 1).val < 64 := (i 1).isLt
  let t : Fin cfg1.N := Fin.cast N_1.symm ⟨(i 0).val / 400, by omega⟩
  have ht : t.val = (i 0).val / 400 := rfl
  obtain ⟨-, -, -, -, -, -, -, -, -, -, -, -, -, -, -, -, -, -, -, -, -, -, -, -, e0, e1⟩ := idx1 t
  refine ⟨t, flush1_12 t, ?_⟩
  rw [mem_blk1_12]
  intro a
  match a with
  | ⟨0, _⟩ => show win1_12.index t (0 : Fin 2) * 400 ≤ (i 0).val ∧ (i 0).val < win1_12.index t (0 : Fin 2) * 400 + 400; rw [e0, ht]; omega
  | ⟨1, _⟩ => show win1_12.index t (1 : Fin 2) * 64 ≤ (i 1).val ∧ (i 1).val < win1_12.index t (1 : Fin 2) * 64 + 64; rw [e1]; omega

/-- THE SECOND REGION'S OUTPUT ARRAYS after the region. -/
theorem final1_mean (c : Dev nD) : (dat1 V c).arrAt 11 cfg1.N = Gmean V c :=
  (dat1 V c).arrAt_eq_of_cover 11 (Gmean V c) (fun t _ => flushed1_mean V c t) (cover1_11)
theorem final1_logvar (c : Dev nD) : (dat1 V c).arrAt 12 cfg1.N = Glogvar V c :=
  (dat1 V c).arrAt_eq_of_cover 12 (Glogvar V c) (fun t _ => flushed1_logvar V c t) (cover1_12)

end Cert.KernelIdeal.Arrays

end
-- ==== Proof.V.Bridge.lean ====
import proofs.«168631_g6597069767366_cont_9to1_m_905_4_alg».proof.Proof.KI.Run
import proofs.«168631_g6597069767366_cont_9to1_m_905_4_alg».proof.Proof.V.KernelValue
import Idealize.ShloMosaic.Lib.Pipeline.Value
import Idealize.ShloMosaic.Lib.StableHlo.Run

/-! # The kernel program's two results as functions of the launch memory

The first region is entered from the launch memory with each bias vector reshaped to a one-row matrix; it leaves
its output array at the first layer's result times the second weights. The second region is entered from that and
leaves its two output arrays at the two heads of the hidden representation. Read back through the boundaries,
both are the encoder's heads of the fourteen argument arrays as launched. -/

noncomputable section

namespace Cert.KernelIdeal.Bridge

open Cert.KernelIdeal Cert.KernelIdeal.Gen Cert.KernelIdeal.Layers Cert.KernelIdeal.Arrays
open Idealize.ShloMosaic Idealize.ShloMosaic.TcCoe Idealize.ShloMosaic.ValueIdx
open Idealize.SL Idealize.SL.Sem

variable (m : (ℓ : Loc nD τ sig) → Buf (Elt Ideal) ℓ)

/-- A vector reshaped to a one-row matrix, read back as a vector, is the vector. -/
theorem rowOf_reshape128 (b : S128.Idx → EReal) :
    Cert.Spec.rowOf (N := 128) (shapeCast S1x128 b shapeCasts_S128_S1x128) = b := by
  funext q
  exact (shapeCast_addUnit_apply ![128] b shapeCasts_S128_S1x128 (ix2 0 (q 0))).trans
    (congrArg b (funext fun a => by match a with | ⟨0, _⟩ => rfl))
theorem rowOf_reshape64 (b : S64.Idx → EReal) :
    Cert.Spec.rowOf (N := 64) (shapeCast S1x64 b shapeCasts_S64_S1x64) = b := by
  funext q
  exact (shapeCast_addUnit_apply ![64] b shapeCasts_S64_S1x64 (ix2 0 (q 0))).trans
    (congrArg b (funext fun a => by match a with | ⟨0, _⟩ => rfl))

/-! ## The first region's entry contents -/

/-- A buffer no reshape writes holds its launch contents. -/
theorem u1_arg (c : Dev nD) (b : Ref sig .tc) (h : b ∉ Gen.hostOps0_W) : U1 m c b = m ((c : Thread nD τ).loc b) :=
  (Gen.V1_of m c b h).trans rfl

/-- The reshape of argument 3, read as a vector, is the argument. -/
theorem u1_bias0 (c : Dev nD) : Cert.Spec.rowOf (N := 128) (U1 m c main_call0_v0) = m ((c : Thread nD τ).loc main_arg3) := by
  have e : (U1 m c main_call0_v0 : S1x128.Idx → EReal) = shapeCast S1x128 (m ((c : Thread nD τ).loc main_arg3)) shapeCasts_S128_S1x128 := by
    dsimp only [U1, Gen.V1, Gen.V0, Gen.hostOps0]; after_results; rfl
  rw [e]; exact rowOf_reshape128 _
/-- The reshape of argument 5, read as a vector, is the argument. -/
theorem u1_bias1 (c : Dev nD) : Cert.Spec.rowOf (N := 128) (U1 m c main_call0_v1) = m ((c : Thread nD τ).loc main_arg5) := by
  have e : (U1 m c main_call0_v1 : S1x128.Idx → EReal) = shapeCast S1x128 (m ((c : Thread nD τ).loc main_arg5)) shapeCasts_S128_S1x128 := by
    dsimp only [U1, Gen.V1, Gen.V0, Gen.hostOps0]; after_results; rfl
  rw [e]; exact rowOf_reshape128 _
/-- The reshape of argument 7, read as a vector, is the argument. -/
theorem u1_bias2 (c : Dev nD) : Cert.Spec.rowOf (N := 64) (U1 m c main_call0_v2) = m ((c : Thread nD τ).loc main_arg7) := by
  have e : (U1 m c main_call0_v2 : S1x64.Idx → EReal) = shapeCast S1x64 (m ((c : Thread nD τ).loc main_arg7)) shapeCasts_S64_S1x64 := by
    dsimp only [U1, Gen.V1, Gen.V0, Gen.hostOps0]; after_results; rfl
  rw [e]; exact rowOf_reshape64 _
/-- The reshape of argument 9, read as a vector, is the argument. -/
theorem u1_bias3 (c : Dev nD) : Cert.Spec.rowOf (N := 64) (U1 m c main_call0_v3) = m ((c : Thread nD τ).loc main_arg9) := by
  have e : (U1 m c main_call0_v3 : S1x64.Idx → EReal) = shapeCast S1x64 (m ((c : Thread nD τ).loc main_arg9)) shapeCasts_S64_S1x64 := by
    dsimp only [U1, Gen.V1, Gen.V0, Gen.hostOps0]; after_results; rfl
  rw [e]; exact rowOf_reshape64 _
/-- The reshape of argument 11, read as a vector, is the argument. -/
theorem u1_bias4 (c : Dev nD) : Cert.Spec.rowOf (N := 64) (U1 m c main_call0_v4) = m ((c : Thread nD τ).loc main_arg11) := by
  have e : (U1 m c main_call0_v4 : S1x64.Idx → EReal) = shapeCast S1x64 (m ((c : Thread nD τ).loc main_arg11)) shapeCasts_S64_S1x64 := by
    dsimp only [U1, Gen.V1, Gen.V0, Gen.hostOps0]; after_results; rfl
  rw [e]; exact rowOf_reshape64 _
/-- The reshape of argument 13, read as a vector, is the argument. -/
theorem u1_bias5 (c : Dev nD) : Cert.Spec.rowOf (N := 64) (U1 m c main_call0_v5) = m ((c : Thread nD τ).loc main_arg13) := by
  have e : (U1 m c main_call0_v5 : S1x64.Idx → EReal) = shapeCast S1x64 (m ((c : Thread nD τ).loc main_arg13)) shapeCasts_S64_S1x64 := by
    dsimp only [U1, Gen.V1, Gen.V0, Gen.hostOps0]; after_results; rfl
  rw [e]; exact rowOf_reshape64 _

/-! ## The second region's entry contents -/

/-- A buffer that is no output array of the first region enters the second as it entered the first. -/
theorem u2_keep (c : Dev nD) (b : Ref sig .tc) (h : ∀ w : Fin cfg0.W, Pipeline.arrRef spec0 w = b → (cfg0.win w).isOut = false) :
    U2 m c b = U1 m c b := B2_keep m c b h

/-- The first region's output array: the first layer's result times the second weights. -/
theorem u2_support (c : Dev nD) :
    U2 m c (Pipeline.arrRef spec1 0) = Cert.Spec.support1 (m ((c : Thread nD τ).loc main_arg0)) (m ((c : Thread nD τ).loc main_arg1)) (m ((c : Thread nD τ).loc main_arg2)) (m ((c : Thread nD τ).loc main_arg3)) (m ((c : Thread nD τ).loc main_arg4)) := by
  refine (B2_arr m c 5).trans ((final0 (U1 m) c).trans ?_)
  unfold G1
  rw [u1_arg m c (Pipeline.arrRef spec0 0) (by decide), u1_arg m c (Pipeline.arrRef spec0 4) (by decide),
    u1_arg m c (Pipeline.arrRef spec0 1) (by decide), u1_arg m c (Pipeline.arrRef spec0 3) (by decide)]
  rw [show Cert.Spec.rowOf (N := 128) (U1 m c (Pipeline.arrRef spec0 2)) = m ((c : Thread nD τ).loc main_arg3) from u1_bias0 m c]

theorem u2_adj (c : Dev nD) : U2 m c (Pipeline.arrRef spec1 10) = m ((c : Thread nD τ).loc main_arg1) :=
  (u2_keep m c _ (by decide)).trans (u1_arg m c _ (by decide))
theorem u2_w2 (c : Dev nD) : U2 m c (Pipeline.arrRef spec1 2) = m ((c : Thread nD τ).loc main_arg6) :=
  (u2_keep m c _ (by decide)).trans (u1_arg m c _ (by decide))
theorem u2_w4 (c : Dev nD) : U2 m c (Pipeline.arrRef spec1 4) = m ((c : Thread nD τ).loc main_arg8) :=
  (u2_keep m c _ (by decide)).trans (u1_arg m c _ (by decide))
theorem u2_w6 (c : Dev nD) : U2 m c (Pipeline.arrRef spec1 6) = m ((c : Thread nD τ).loc main_arg10) :=
  (u2_keep m c _ (by decide)).trans (u1_arg m c _ (by decide))
theorem u2_w8 (c : Dev nD) : U2 m c (Pipeline.arrRef spec1 8) = m ((c : Thread nD τ).loc main_arg12) :=
  (u2_keep m c _ (by decide)).trans (u1_arg m c _ (by decide))
theorem u2_b1 (c : Dev nD) : Cert.Spec.rowOf (N := 128) (U2 m c (Pipeline.arrRef spec1 1)) = m ((c : Thread nD τ).loc main_arg5) := by
  rw [show U2 m c (Pipeline.arrRef spec1 1) = U1 m c main_call0_v1 from u2_keep m c _ (by decide)]
  exact u1_bias1 m c
theorem u2_b3 (c : Dev nD) : Cert.Spec.rowOf (N := 64) (U2 m c (Pipeline.arrRef spec1 3)) = m ((c : Thread nD τ).loc main_arg7) := by
  rw [show U2 m c (Pipeline.arrRef spec1 3) = U1 m c main_call0_v2 from u2_keep m c _ (by decide)]
  exact u1_bias2 m c
theorem u2_b5 (c : Dev nD) : Cert.Spec.rowOf (N := 64) (U2 m c (Pipeline.arrRef spec1 5)) = m ((c : Thread nD τ).loc main_arg9) := by
  rw [show U2 m c (Pipeline.arrRef spec1 5) = U1 m c main_call0_v3 from u2_keep m c _ (by decide)]
  exact u1_bias3 m c
theorem u2_b7 (c : Dev nD) : Cert.Spec.rowOf (N := 64) (U2 m c (Pipeline.arrRef spec1 7)) = m ((c : Thread nD τ).loc main_arg11) := by
  rw [show U2 m c (Pipeline.arrRef spec1 7) = U1 m c main_call0_v4 from u2_keep m c _ (by decide)]
  exact u1_bias4 m c
theorem u2_b9 (c : Dev nD) : Cert.Spec.rowOf (N := 64) (U2 m c (Pipeline.arrRef spec1 9)) = m ((c : Thread nD τ).loc main_arg13) := by
  rw [show U2 m c (Pipeline.arrRef spec1 9) = U1 m c main_call0_v5 from u2_keep m c _ (by decide)]
  exact u1_bias5 m c

/-- The hidden representation the second region computes, of the launch memory. -/
theorem hidden_eq (c : Dev nD) : H2 (U2 m) c = (Cert.Spec.hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  unfold H2 Cert.Spec.hidden
  rw [u2_adj, u2_support, u2_b1]

/-! ## The two results -/

/-- The first result array ends at the first head. -/
theorem mean_eq (c : Dev nD) :
    (B3 m c (Proc.devRef .tc main_v0_0) : S10000x64.Idx → EReal)
      = Cert.Spec.head (M := 10000) (Cert.Spec.hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6)) (m ((c : Thread nD τ).loc main_arg7)) (m ((c : Thread nD τ).loc main_arg8)) (m ((c : Thread nD τ).loc main_arg9)) := by
  refine (B3_arr m c 11).trans ((final1_mean (U2 m) c).trans ?_)
  unfold Gmean
  rw [hidden_eq, u2_w2, u2_b3, u2_w4, u2_b5]

/-- The second result array ends at the second head. -/
theorem logvar_eq (c : Dev nD) :
    (B3 m c (Proc.devRef .tc main_v0_1) : S10000x64.Idx → EReal)
      = Cert.Spec.head (M := 10000) (Cert.Spec.hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg10)) (m ((c : Thread nD τ).loc main_arg11)) (m ((c : Thread nD τ).loc main_arg12)) (m ((c : Thread nD τ).loc main_arg13)) := by
  refine (B3_arr m c 12).trans ((final1_logvar (U2 m) c).trans ?_)
  unfold Glogvar
  rw [hidden_eq, u2_w6, u2_b7, u2_w8, u2_b9]

end Cert.KernelIdeal.Bridge

end
-- ==== Proof.lean ====
/- The certificate of a two-layer graph encoder with two heads: a kernel program of two tiled regions against a plain
   reference.

   Both programs compute, on the extended reals, the hidden representation
   `H = relu (A · (relu (A · (X · W0) + b0) · W1) + b1)` of the features `X` under the adjacency `A`, and from it two heads
   `relu (H · U1 + c1) · U2 + c2`. The kernel program computes 400 rows at a time: its first region stores `X · W0`
   once, at its first grid point, in a buffer every later point reads, and writes `relu (A · (X · W0) + b0) · W1` block
   by block; its second region reads that array whole and writes the two heads block by block. Taking 400 rows of a
   matrix commutes with a product on the right, a bias row and the clamp, so each block is the block of the same
   stage computed on whole arrays, and the blocks cover the arrays: the two programs' results are the same sums in the
   same order, and no law of the extended reals beyond that is needed (the inputs' finiteness is not used).

   The frames: each region's body is run on whole staging buffers (the first region's in two cases, at the first grid
   point and after it); the program is its host reshapes followed by the two regions, and no segment writes an
   argument array. -/
import proofs.«168631_g6597069767366_cont_9to1_m_905_4_alg».proof.Defs
import proofs.«168631_g6597069767366_cont_9to1_m_905_4_alg».proof.Proof.Gen.Kernel
import proofs.«168631_g6597069767366_cont_9to1_m_905_4_alg».proof.Proof.Gen.KernelIdeal
import proofs.«168631_g6597069767366_cont_9to1_m_905_4_alg».proof.Proof.Gen.ReferenceIdeal
import proofs.«168631_g6597069767366_cont_9to1_m_905_4_alg».proof.Proof.Gen.Pre_finite_inputs
import proofs.«168631_g6597069767366_cont_9to1_m_905_4_alg».proof.Proof.Gen.ReferenceIdeal.Run
import proofs.«168631_g6597069767366_cont_9to1_m_905_4_alg».proof.Proof.Gen.ReferenceIdeal.Read
import proofs.«168631_g6597069767366_cont_9to1_m_905_4_alg».proof.Proof.K.Run
import proofs.«168631_g6597069767366_cont_9to1_m_905_4_alg».proof.Proof.KI.Run
import proofs.«168631_g6597069767366_cont_9to1_m_905_4_alg».proof.Proof.V.RefSpec
import proofs.«168631_g6597069767366_cont_9to1_m_905_4_alg».proof.Proof.V.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Layers.frame m ρ
theorem frame_ki : Cert.frame_KernelIdeal := fun m ρ _ => Cert.KernelIdeal.Layers.frame m ρ
/-- The reference's frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the two heads of the hidden representation of the argument arrays: the kernel program by
    its run read through the regions' boundaries, the reference by its stages read at an index. -/
theorem algebraic : Cert.algebraic_KernelIdeal_ReferenceIdeal := by
  intro m ρ m' ρ' _ hagree
  refine ⟨fun c => Cert.Spec.head (M := 10000) (Cert.Spec.hidden (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => Cert.Spec.head (M := 10000) (Cert.Spec.hidden (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · refine (θ_run Cert.KernelIdeal.defs _ _).mono (fun r h c => ?_) (Cert.KernelIdeal.Layers.run m ρ)
    exact ⟨(h c _ (Cert.KernelIdeal.Layers.mem_uc Cert.KernelIdeal.main_v0_0 (by decide))).trans (Cert.KernelIdeal.Bridge.mean_eq m c),
      (h c _ (Cert.KernelIdeal.Layers.mem_uc Cert.KernelIdeal.main_v0_1 (by decide))).trans (Cert.KernelIdeal.Bridge.logvar_eq m c),
      (h c _ (Cert.KernelIdeal.Layers.mem_uc Cert.KernelIdeal.main_arg0 (by decide))).trans (Cert.KernelIdeal.Layers.B3_launch m c Cert.KernelIdeal.main_arg0 (by decide) (by decide) (by decide)),
      (h c _ (Cert.KernelIdeal.Layers.mem_uc Cert.KernelIdeal.main_arg1 (by decide))).trans (Cert.KernelIdeal.Layers.B3_launch m c Cert.KernelIdeal.main_arg1 (by decide) (by decide) (by decide)),
      (h c _ (Cert.KernelIdeal.Layers.mem_uc Cert.KernelIdeal.main_arg2 (by decide))).trans (Cert.KernelIdeal.Layers.B3_launch m c Cert.KernelIdeal.main_arg2 (by decide) (by decide) (by decide)),
      (h c _ (Cert.KernelIdeal.Layers.mem_uc Cert.KernelIdeal.main_arg3 (by decide))).trans (Cert.KernelIdeal.Layers.B3_launch m c Cert.KernelIdeal.main_arg3 (by decide) (by decide) (by decide)),
      (h c _ (Cert.KernelIdeal.Layers.mem_uc Cert.KernelIdeal.main_arg4 (by decide))).trans (Cert.KernelIdeal.Layers.B3_launch m c Cert.KernelIdeal.main_arg4 (by decide) (by decide) (by decide)),
      (h c _ (Cert.KernelIdeal.Layers.mem_uc Cert.KernelIdeal.main_arg5 (by decide))).trans (Cert.KernelIdeal.Layers.B3_launch m c Cert.KernelIdeal.main_arg5 (by decide) (by decide) (by decide)),
      (h c _ (Cert.KernelIdeal.Layers.mem_uc Cert.KernelIdeal.main_arg6 (by decide))).trans (Cert.KernelIdeal.Layers.B3_launch m c Cert.KernelIdeal.main_arg6 (by decide) (by decide) (by decide)),
      (h c _ (Cert.KernelIdeal.Layers.mem_uc Cert.KernelIdeal.main_arg7 (by decide))).trans (Cert.KernelIdeal.Layers.B3_launch m c Cert.KernelIdeal.main_arg7 (by decide) (by decide) (by decide)),
      (h c _ (Cert.KernelIdeal.Layers.mem_uc Cert.KernelIdeal.main_arg8 (by decide))).trans (Cert.KernelIdeal.Layers.B3_launch m c Cert.KernelIdeal.main_arg8 (by decide) (by decide) (by decide)),
      (h c _ (Cert.KernelIdeal.Layers.mem_uc Cert.KernelIdeal.main_arg9 (by decide))).trans (Cert.KernelIdeal.Layers.B3_launch m c Cert.KernelIdeal.main_arg9 (by decide) (by decide) (by decide)),
      (h c _ (Cert.KernelIdeal.Layers.mem_uc Cert.KernelIdeal.main_arg10 (by decide))).trans (Cert.KernelIdeal.Layers.B3_launch m c Cert.KernelIdeal.main_arg10 (by decide) (by decide) (by decide)),
      (h c _ (Cert.KernelIdeal.Layers.mem_uc Cert.KernelIdeal.main_arg11 (by decide))).trans (Cert.KernelIdeal.Layers.B3_launch m c Cert.KernelIdeal.main_arg11 (by decide) (by decide) (by decide)),
      (h c _ (Cert.KernelIdeal.Layers.mem_uc Cert.KernelIdeal.main_arg12 (by decide))).trans (Cert.KernelIdeal.Layers.B3_launch m c Cert.KernelIdeal.main_arg12 (by decide) (by decide) (by decide)),
      (h c _ (Cert.KernelIdeal.Layers.mem_uc Cert.KernelIdeal.main_arg13 (by decide))).trans (Cert.KernelIdeal.Layers.B3_launch m c Cert.KernelIdeal.main_arg13 (by decide) (by decide) (by decide))⟩
  · refine (θ_run Cert.ReferenceIdeal.defs _ _).mono (fun r h c => ?_) (Cert.ReferenceIdeal.Value.run (F := Ideal) m' ρ')
    obtain ⟨g0, g1, g2, g3, g4, g5, g6, g7, g8, g9, g10, g11, g12, g13⟩ := hagree c
    refine ⟨?_, ?_, (h c).2.2⟩
    · rw [(h c).1, Cert.ReferenceIdeal.Read.val_main_v20_eq, Cert.ReferenceIdeal.RefSpec.mean_eq, g0, g1, g2, g3, g4, g5, g6, g7, g8, g9]
    · rw [(h c).2.1, Cert.ReferenceIdeal.Read.val_main_v29_eq, Cert.ReferenceIdeal.RefSpec.logvar_eq, g0, g1, g2, g3, g4, g5, g10, g11, g12, g13]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
